-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v79_1)) (v1 : (c : Dev Cert.KernelIdeal.nD) → Buf (Elt Ideal) ((c.tc : Thread Cert.KernelIdeal.nD Cert.KernelIdeal.τ).loc Cert.KernelIdeal.main_v79_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79_1) = v0 c
          ∧ r.2.mem ((c.tc : Thread Cert.KernelIdeal.nD Cert.KernelIdeal.τ).loc Cert.KernelIdeal.main_v79_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S2x64 .f32) (main_arg14 : FVec F S2 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S2x64 .f32 := Host.absf main_arg13
  let main_cst_22 : FVec F S_ .f32 := constant S_ .f32 0x7F800000#32
  let main_v60 : FVec F S2x64 .f32 := broadcastInDim S2x64 ![] bcast_S_S2x64 main_cst_22
  let main_v61 : IVec S2x64 1 := cmpf .olt main_v59 main_v60
  let main_c_23 : IVec S_ 1 := constantI S_ 1 1#1
  let main_v62 : IVec S_ 1 := (fun x v => Host.reduce IntOp.andi x v reducesTo_S2x64_S_d0_1 h_S_) main_v61 main_c_23
  let main_v63 : IVec S_ 1 := andi main_v58 main_v62
  let main_v64 : FVec F S2 .f32 := Host.absf main_arg14
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_v63 main_v67

def fn_part2 {F : FTy → Type} [FloatOps F] (main_arg8 : FVec F S128x128 .f32) (main_arg9 : FVec F S128 .f32) (main_arg10 : FVec F S128x128 .f32) (main_arg11 : FVec F S64x128 .f32) (main_arg12 : FVec F S64 .f32) (main_arg13 : FVec F S2x64 .f32) (main_arg14 : FVec F S2 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S64x128 .f32 := Host.absf main_arg11
  let main_cst_18 : FVec F S_ .f32 := constant S_ .f32 0x7F800000#32
  let main_v50 : FVec F S64x128 .f32 := broadcastInDim S64x128 ![] bcast_S_S64x128 main_cst_18
  fn_part3 (F := F) main_arg12 main_arg13 main_arg14 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S64x128 .f32) (main_arg12 : FVec F S64 .f32) (main_arg13 : FVec F S2x64 .f32) (main_arg14 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S64x128 .f32) (main_arg12 : FVec F S64 .f32) (main_arg13 : FVec F S2x64 .f32) (main_arg14 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S1x800000 : Shape := ⟨2, ![1, 800000]⟩
abbrev S800000 : Shape := ⟨1, ![800000]⟩
abbrev S1x128 : Shape := ⟨2, ![1, 128]⟩
abbrev S128x64 : Shape := ⟨2, ![128, 64]⟩
abbrev S_ : Shape := ⟨0, ![]⟩
abbrev S64x2 : Shape := ⟨2, ![64, 2]⟩
abbrev S128x2 : Shape := ⟨2, ![128, 2]⟩
abbrev S1x2 : Shape := ⟨2, ![1, 2]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S5000x128 : Shape := ⟨2, ![5000, 128]⟩
abbrev S50000x2 : Shape := ⟨2, ![50000, 2]⟩
abbrev S5000x2 : Shape := ⟨2, ![5000, 2]⟩

abbrev nBuf : Space → Nat
  | .hbm => 120
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S64x128, .f32⟩
  | .hbm, ⟨12, _⟩ => ⟨S64, .f32⟩
  | .hbm, ⟨13, _⟩ => ⟨S2x64, .f32⟩
  | .hbm, ⟨14, _⟩ => ⟨S2, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S128x64, .f32⟩
  | .hbm, ⟨29, _⟩ => ⟨S_, .i32⟩
  | .hbm, ⟨30, _⟩ => ⟨S_, .f32⟩
  | .hbm, ⟨31, _⟩ => ⟨S128x128, .f32⟩
  | .hbm, ⟨32, _⟩ => ⟨S_, .i32⟩
  | .hbm, ⟨33, _⟩ => ⟨S_, .f32⟩
  | .hbm, ⟨34, _⟩ => ⟨S128, .f32⟩
  | .hbm, ⟨35, _⟩ => ⟨S1x128, .f32⟩
  | .hbm, ⟨36, _⟩ => ⟨S64x2, .f32⟩
  | .hbm, ⟨37, _⟩ => ⟨S_, .i32⟩
  | .hbm, ⟨38, _⟩ => ⟨S_, .f32⟩
  | .hbm, ⟨39, _⟩ => ⟨S128x2, .f32⟩
  | .hbm, ⟨40, _⟩ => ⟨S1x2, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S_, .f32⟩
  | .hbm, ⟨55, _⟩ => ⟨S800000, .f32⟩
  | .hbm, ⟨56, _⟩ => ⟨S_, .f32⟩
  | .hbm, ⟨57, _⟩ => ⟨S50000, .f32⟩
  | .hbm, ⟨58, _⟩ => ⟨S800000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S_, .f32⟩
  | .hbm, ⟨81, _⟩ => ⟨S800000, .f32⟩
  | .hbm, ⟨82, _⟩ => ⟨S_, .f32⟩
  | .hbm, ⟨83, _⟩ => ⟨S50000, .f32⟩
  | .hbm, ⟨84, _⟩ => ⟨S800000x1, .i32⟩
  | .hbm, ⟨85, _⟩ => ⟨S50000, .f32⟩
  | .hbm, ⟨86, _⟩ => ⟨S_, .f32⟩
  | .hbm, ⟨87, _⟩ => ⟨S50000, .f32⟩
  | .hbm, ⟨88, _⟩ => ⟨S50000, .f32⟩
  | .hbm, ⟨89, _⟩ => ⟨S50000x1, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S_, .i32⟩
  | .hbm, ⟨94, _⟩ => ⟨S800000, .i32⟩
  | .hbm, ⟨95, _⟩ => ⟨S800000, .i1⟩
  | .hbm, ⟨96, _⟩ => ⟨S_, .i32⟩
  | .hbm, ⟨97, _⟩ => ⟨S800000, .i32⟩
  | .hbm, ⟨98, _⟩ => ⟨S800000, .i32⟩
  | .hbm, ⟨99, _⟩ => ⟨S800000, .i32⟩
  | .hbm, ⟨100, _⟩ => ⟨S800000x1, .i32⟩
  | .hbm, ⟨101, _⟩ => ⟨S800000x128, .f32⟩
  | .hbm, ⟨102, _⟩ => ⟨S_, .f32⟩
  | .hbm, ⟨103, _⟩ => ⟨S50000x128, .f32⟩
  | .hbm, ⟨104, _⟩ => ⟨S800000x1, .i32⟩
  | .hbm, ⟨105, _⟩ => ⟨S50000x128, .f32⟩
  | .hbm, ⟨106, _⟩ => ⟨S_, .f32⟩
  | .hbm, ⟨107, _⟩ => ⟨S800000, .f32⟩
  | .hbm, ⟨108, _⟩ => ⟨S_, .f32⟩
  | .hbm, ⟨109, _⟩ => ⟨S50000, .f32⟩
  | .hbm, ⟨110, _⟩ => ⟨S800000x1, .i32⟩
  | .hbm, ⟨111, _⟩ => ⟨S50000, .f32⟩
  | .hbm, ⟨112, _⟩ => ⟨S_, .f32⟩
  | .hbm, ⟨113, _⟩ => ⟨S50000, .f32⟩
  | .hbm, ⟨114, _⟩ => ⟨S50000, .f32⟩
  | .hbm, ⟨115, _⟩ => ⟨S50000x1, .f32⟩
  | .hbm, ⟨116, _⟩ => ⟨S50000x128, .f32⟩
  | .hbm, ⟨117, _⟩ => ⟨S50000x128, .f32⟩
  | .hbm, ⟨118, _⟩ => ⟨S50000x128, .f32⟩
  | .hbm, ⟨119, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S128x128, .f32⟩
  | .local _ .vmem, ⟨26, _⟩ => ⟨S1x128, .f32⟩
  | .local _ .vmem, ⟨27, _⟩ => ⟨S128x2, .f32⟩
  | .local _ .vmem, ⟨28, _⟩ => ⟨S1x2, .f32⟩
  | .local _ .vmem, ⟨29, _⟩ => ⟨S5000x128, .f32⟩
  | .local _ .vmem, ⟨30, _⟩ => ⟨S5000x128, .f32⟩
  | .local _ .vmem, ⟨31, _⟩ => ⟨S5000x2, .f32⟩
  | .local _ .vmem, ⟨32, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_call0_v0 : Ref sig .tc := ⟨.hbm, 30, rfl⟩
abbrev main_v14 : Ref sig .tc := ⟨.hbm, 31, rfl⟩
abbrev main_c_0 : Ref sig .tc := ⟨.hbm, 32, rfl⟩
abbrev main_call1_v0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_1 : Ref sig .tc := ⟨.hbm, 37, rfl⟩
abbrev main_call2_v0 : Ref sig .tc := ⟨.hbm, 38, rfl⟩
abbrev main_v18 : Ref sig .tc := ⟨.hbm, 39, rfl⟩
abbrev main_v19 : Ref sig .tc := ⟨.hbm, 40, rfl⟩
abbrev main_c_2 : Ref sig .tc := ⟨.hbm, 41, rfl⟩
abbrev main_v20 : Ref sig .tc := ⟨.hbm, 42, rfl⟩
abbrev main_v21 : Ref sig .tc := ⟨.hbm, 43, rfl⟩
abbrev main_c_3 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_7 : Ref sig .tc := ⟨.hbm, 67, rfl⟩
abbrev main_v40 : Ref sig .tc := ⟨.hbm, 68, rfl⟩
abbrev main_v41 : Ref sig .tc := ⟨.hbm, 69, rfl⟩
abbrev main_c_8 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_10 : Ref sig .tc := ⟨.hbm, 80, rfl⟩
abbrev main_v50 : Ref sig .tc := ⟨.hbm, 81, rfl⟩
abbrev main_cst_11 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_12 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_13 : Ref sig .tc := ⟨.hbm, 93, rfl⟩
abbrev main_v60 : Ref sig .tc := ⟨.hbm, 94, rfl⟩
abbrev main_v61 : Ref sig .tc := ⟨.hbm, 95, rfl⟩
abbrev main_c_14 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_15 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_16 : Ref sig .tc := ⟨.hbm, 106, rfl⟩
abbrev main_v70 : Ref sig .tc := ⟨.hbm, 107, rfl⟩
abbrev main_cst_17 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_18 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79_0 : Ref sig .tc := ⟨.hbm, 118, rfl⟩
abbrev main_v79_1 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg9_1 : Ref sig .tc := ⟨.vmem, 30, rfl⟩
abbrev cc2_stg10_0 : Ref sig .tc := ⟨.vmem, 31, rfl⟩
abbrev cc2_stg10_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem9_1 : DmaSem sig := 30
abbrev cc2_sem10_0 : DmaSem sig := 31
abbrev cc2_sem10_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x2 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S5000x2 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  shapeCasts_S128_S1x128 : S128.ShapeCasts S1x128
  transposes_S64x128_S128x64_1_0 : S64x128.Transposes [1, 0] S128x64
  pads_S128x64_S128x128_000_0640 : S128x64.Pads (![0, 0] : Fin 2 → Nat) ![0, 64] ![0, 0] S128x128
  h_S_ : 0 < S_.numel
  pads_S64_S128_0640 : S64.Pads (![0] : Fin 1 → Nat) ![64] ![0] S128
  transposes_S2x64_S64x2_1_0 : S2x64.Transposes [1, 0] S64x2
  pads_S64x2_S128x2_0640_000 : S64x2.Pads (![0, 0] : Fin 2 → Nat) ![64, 0] ![0, 0] S128x2
  shapeCasts_S2_S1x2 : S2.ShapeCasts S1x2
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x2.size a ≤ S128x2.size a
  hwx2_7 : ∀ i : grid2.Coords, EltTy.bits .f32 = 32 ∨ (Rect.block (s := S128x2) S128x2.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x2.size a ≤ S1x2.size a
  hwx2_8 : ∀ i : grid2.Coords, EltTy.bits .f32 = 32 ∨ (Rect.block (s := S1x2) S1x2.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S50000x128.size a
  hwx2_9 : ∀ i : grid2.Coords, EltTy.bits .f32 = 32 ∨ (Rect.block (s := S50000x128) S5000x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x2.size a ≤ S50000x2.size a
  hwx2_10 : ∀ i : grid2.Coords, EltTy.bits .f32 = 32 ∨ (Rect.block (s := S50000x2) S5000x2.size (cc2_transform_10 i) (hinb2_10 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v59) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v78) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v14) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v16) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v18) S128x2.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v19) S1x2.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v79_0) S5000x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v79_1) S5000x2.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩
abbrev S64x2 : Shape := ⟨2, ![64, 2]⟩
abbrev S50000x2 : Shape := ⟨2, ![50000, 2]⟩
abbrev S1x2 : Shape := ⟨2, ![1, 2]⟩

abbrev nBuf : Space → Nat
  | .hbm => 137
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S64x128, .f32⟩
  | 12 => ⟨S64, .f32⟩
  | 13 => ⟨S2x64, .f32⟩
  | 14 => ⟨S2, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S_, .f32⟩
  | 29 => ⟨S50000x128, .f32⟩
  | 30 => ⟨S800000x1, .i32⟩
  | 31 => ⟨S50000x128, .f32⟩
  | 32 => ⟨S_, .f32⟩
  | 33 => ⟨S800000, .f32⟩
  | 34 => ⟨S_, .f32⟩
  | 35 => ⟨S50000, .f32⟩
  | 36 => ⟨S800000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S50000x128, .f32⟩
  | 44 => ⟨S128x128, .f32⟩
  | 45 => ⟨S50000x128, .f32⟩
  | 46 => ⟨S1x128, .f32⟩
  | 47 => ⟨S50000x128, .f32⟩
  | 48 => ⟨S50000x128, .f32⟩
  | 49 => ⟨S128x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S_, .f32⟩
  | 65 => ⟨S50000x128, .f32⟩
  | 66 => ⟨S800000x1, .i32⟩
  | 67 => ⟨S50000x128, .f32⟩
  | 68 => ⟨S_, .f32⟩
  | 69 => ⟨S800000, .f32⟩
  | 70 => ⟨S_, .f32⟩
  | 71 => ⟨S50000, .f32⟩
  | 72 => ⟨S800000x1, .i32⟩
  | 73 => ⟨S50000, .f32⟩
  | 74 => ⟨S_, .f32⟩
  | 75 => ⟨S50000, .f32⟩
  | 76 => ⟨S50000, .f32⟩
  | 77 => ⟨S50000x1, .f32⟩
  | 78 => ⟨S50000x128, .f32⟩
  | 79 => ⟨S50000x128, .f32⟩
  | 80 => ⟨S128x128, .f32⟩
  | 81 => ⟨S50000x128, .f32⟩
  | 82 => ⟨S1x128, .f32⟩
  | 83 => ⟨S50000x128, .f32⟩
  | 84 => ⟨S50000x128, .f32⟩
  | 85 => ⟨S128x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S_, .f32⟩
  | 101 => ⟨S50000x128, .f32⟩
  | 102 => ⟨S800000x1, .i32⟩
  | 103 => ⟨S50000x128, .f32⟩
  | 104 => ⟨S_, .f32⟩
  | 105 => ⟨S800000, .f32⟩
  | 106 => ⟨S_, .f32⟩
  | 107 => ⟨S50000, .f32⟩
  | 108 => ⟨S800000x1, .i32⟩
  | 109 => ⟨S50000, .f32⟩
  | 110 => ⟨S_, .f32⟩
  | 111 => ⟨S50000, .f32⟩
  | 112 => ⟨S50000, .f32⟩
  | 113 => ⟨S50000x1, .f32⟩
  | 114 => ⟨S50000x128, .f32⟩
  | 115 => ⟨S50000x128, .f32⟩
  | 116 => ⟨S128x128, .f32⟩
  | 117 => ⟨S50000x128, .f32⟩
  | 118 => ⟨S1x128, .f32⟩
  | 119 => ⟨S50000x128, .f32⟩
  | 120 => ⟨S50000x128, .f32⟩
  | 121 => ⟨S128x128, .f32⟩
  | 122 => ⟨S50000x128, .f32⟩
  | 123 => ⟨S50000x128, .f32⟩
  | 124 => ⟨S128x64, .f32⟩
  | 125 => ⟨S50000x64, .f32⟩
  | 126 => ⟨S1x64, .f32⟩
  | 127 => ⟨S50000x64, .f32⟩
  | _ => ⟨S50000x128, .f32⟩

abbrev hbmTy0_1 (i : Nat) : BufTy := match i % 128 with
  | 0 => ⟨S50000x64, .f32⟩
  | 1 => ⟨S_, .f32⟩
  | 2 => ⟨S50000x64, .f32⟩
  | 3 => ⟨S50000x64, .f32⟩
  | 4 => ⟨S64x2, .f32⟩
  | 5 => ⟨S50000x2, .f32⟩
  | 6 => ⟨S1x2, .f32⟩
  | 7 => ⟨S50000x2, .f32⟩
  | 8 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call0_cst : Ref sig .tc := ⟨.hbm, 52, rfl⟩
abbrev main_call0_v0 : Ref sig .tc := ⟨.hbm, 53, rfl⟩
abbrev main_v31 : Ref sig .tc := ⟨.hbm, 54, rfl⟩
abbrev main_c_4 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_7 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_9 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_call1_cst : Ref sig .tc := ⟨.hbm, 88, rfl⟩
abbrev main_call1_v0 : Ref sig .tc := ⟨.hbm, 89, rfl⟩
abbrev main_v59 : Ref sig .tc := ⟨.hbm, 90, rfl⟩
abbrev main_c_10 : Ref sig .tc := ⟨.hbm, 91, rfl⟩
abbrev main_v60 : Ref sig .tc := ⟨.hbm, 92, rfl⟩
abbrev main_v61 : Ref sig .tc := ⟨.hbm, 93, rfl⟩
abbrev main_c_11 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_12 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_13 : Ref sig .tc := ⟨.hbm, 104, rfl⟩
abbrev main_v70 : Ref sig .tc := ⟨.hbm, 105, rfl⟩
abbrev main_cst_14 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_15 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_call2_cst : Ref sig .tc := ⟨.hbm, 129, rfl⟩
abbrev main_call2_v0 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  transposes_S2x64_S64x2_1_0 : S2x64.Transposes [1, 0] S64x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  dot_S50000x64_S64x2_S50000x2_1_0_0_1_n_n_wf : DotDims.WF S50000x64 S64x2 S50000x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

class Facts : Prop extends Facts₀ where

variable [Facts]
-- ==== Proof.KRun.lean ====
import proofs.«116254_j15281493639283_1_alg».proof.Proof.Gen.KernelIdeal.Frame

/-!
  The idealized kernel's run with every buffer named.

  The program is three kernel launches among stretches of host operations.  Its run ends with every
  unscoped buffer of a core holding the last boundary's contents: the fold of the host stretches and of the three
  launches' write-backs from the launch memory.  This is the same run the frame is read from, with the whole final
  valuation kept in the post instead of the argument arrays only.
-/

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core
    at the last boundary's contents. -/
theorem run_named : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W12 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c b hb => h c _ (mem_uc b hb))

end Cert.KernelIdeal.KRun

end
-- ==== Proof.SageSpec.lean ====
import Idealize.ShloMosaic.PureOps.Ideal.Laws
import Idealize.ShloMosaic.Lib.ValueIdx

/-!
  One layer of the network, index by index, on the extended reals.

  A layer takes the node features x, the mean of the neighbours' features, two 128×128 weight matrices and a bias row,
  and returns  x·wl + mean·wr + b.  Element (r, q) of it reads row r of x and of the mean only, so a block of
  rows of a layer is the layer of that block of rows.  The classifier is two dense layers with a rectifier between.
-/

noncomputable section

open scoped BigOperators

namespace Cert.Sage

open Idealize.ShloMosaic Idealize.ShloMosaic.ValueIdx

/-- An a×b array of extended reals. -/
abbrev Mat (a b : Nat) : Type := FVec Ideal ⟨2, ![a, b]⟩ .f32

/-- Row r of x against column q of w. -/
def dot {n k p : Nat} (x : Mat n k) (w : Mat k p) (r : Fin n) (q : Fin p) : EReal :=
  ∑ j : Fin k, x (ix2 r j) * w (ix2 j q)

/-- x·wl + mean·wr + b, the bias one row added to every row. -/
def lin {n : Nat} (x mn : Mat n 128) (wl wr : Mat 128 128) (b : Mat 1 128) : Mat n 128 :=
  fun i => dot x wl (i 0) (i 1) + dot mn wr (i 0) (i 1) + b (ix2 (0 : Fin 1) (i 1))

/-- The rectifier, element by element. -/
def relu {n p : Nat} (y : Mat n p) : Mat n p := fun i => max (y i) 0

/-- The classifier: relu (e·w1 + b1)·w2 + b2, both biases one row. -/
def cls {n : Nat} (e : Mat n 128) (w1 : Mat 128 128) (b1 : Mat 1 128) (w2 : Mat 128 2) (b2 : Mat 1 2) : Mat n 2 :=
  fun i => (∑ j : Fin 128, max (dot e w1 (i 0) j + b1 (ix2 (0 : Fin 1) j)) 0 * w2 (ix2 j (i 1))) + b2 (ix2 (0 : Fin 1) (i 1))

theorem lin_apply {n : Nat} (x mn : Mat n 128) (wl wr : Mat 128 128) (b : Mat 1 128) (r : Fin n) (q : Fin 128) :
    lin x mn wl wr b (ix2 r q) = dot x wl r q + dot mn wr r q + b (ix2 (0 : Fin 1) q) := rfl

theorem relu_apply {n p : Nat} (y : Mat n p) (i : (⟨2, ![n, p]⟩ : Shape).Idx) : relu y i = max (y i) 0 := rfl

theorem cls_apply {n : Nat} (e : Mat n 128) (w1 : Mat 128 128) (b1 : Mat 1 128) (w2 : Mat 128 2) (b2 : Mat 1 2)
    (r : Fin n) (c : Fin 2) :
    cls e w1 b1 w2 b2 (ix2 r c)
      = (∑ j : Fin 128, max (dot e w1 r j + b1 (ix2 (0 : Fin 1) j)) 0 * w2 (ix2 j c)) + b2 (ix2 (0 : Fin 1) c) := rfl

/-- A dot product reads one row of its left operand: equal rows give equal products. -/
theorem dot_congr_row {n n' k p : Nat} (x : Mat n k) (x' : Mat n' k) (w : Mat k p) (r : Fin n) (r' : Fin n') (q : Fin p)
    (h : ∀ j : Fin k, x (ix2 r j) = x' (ix2 r' j)) : dot x w r q = dot x' w r' q :=
  Finset.sum_congr rfl fun j _ => by rw [h j]

/-- A block of rows of a layer is the layer of the block of rows: when row p of one pair of operands is row r of
    another, element (p, q) of the first layer is element (r, q) of the second. -/
theorem lin_rows {n n' : Nat} (x mn : Mat n 128) (x' mn' : Mat n' 128) (wl wr : Mat 128 128) (b : Mat 1 128)
    (p : Fin n) (r : Fin n') (q : Fin 128)
    (hx : ∀ k : Fin 128, x (ix2 p k) = x' (ix2 r k)) (hm : ∀ k : Fin 128, mn (ix2 p k) = mn' (ix2 r k)) :
    lin x mn wl wr b (ix2 p q) = lin x' mn' wl wr b (ix2 r q) := by
  rw [lin_apply, lin_apply, dot_congr_row x x' wl p r q hx, dot_congr_row mn mn' wr p r q hm]

/-- The same for the classifier: its row r reads row r of the embedding only. -/
theorem cls_rows {n n' : Nat} (e : Mat n 128) (e' : Mat n' 128) (w1 : Mat 128 128) (b1 : Mat 1 128) (w2 : Mat 128 2)
    (b2 : Mat 1 2) (p : Fin n) (r : Fin n') (c : Fin 2) (he : ∀ k : Fin 128, e (ix2 p k) = e' (ix2 r k)) :
    cls e w1 b1 w2 b2 (ix2 p c) = cls e' w1 b1 w2 b2 (ix2 r c) := by
  rw [cls_apply, cls_apply]
  refine congrArg (· + b2 (ix2 (0 : Fin 1) c)) (Finset.sum_congr rfl fun j _ => ?_)
  rw [dot_congr_row e e' w1 p r j he]

end Cert.Sage

end
-- ==== Proof.SageNet.lean ====
import proofs.«116254_j15281493639283_1_alg».proof.Proof.Gen.KernelIdeal
import proofs.«116254_j15281493639283_1_alg».proof.Proof.SageSpec

/-!
  The whole network as one function of the fifteen argument arrays.

  Three layers, each fed the node features and the mean of the neighbours' features along the edge list; the first two
  rectified; then the classifier on weights padded with zero columns and rows.  The neighbour mean (a gather of rows, a
  scatter-add by destination, the division by the in-degree clamped below at one) is kept as one function that is never
  opened: both programs apply the very same operations to the features.
-/

noncomputable section

namespace Cert.Sage

open Idealize.ShloMosaic Cert.KernelIdeal Cert.KernelIdeal.Gen

/-- The edge list's row of source nodes. -/
def srcIds (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000

/-- The edge list's row of destination nodes. -/
def dstIds (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- The mean over incoming edges of the source rows: rows gathered by source (a negative index wrapped once), summed
    into their destination rows, divided by the number of incoming edges or by one where there is none. -/
def meanAgg (x : FVec Ideal S50000x128 .f32) (s d : (⟨S800000, .i32⟩ : BufTy).Contents (Elt Ideal)) :
    FVec Ideal S50000x128 .f32 :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 d)
      (Host.gather gather_S50000x128_S800000x1_S800000x128_1_0_n_n_0_1_1128 x
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x128 ![0, 1] bcast_S50000x1_S50000x128_0_1
      (broadcastInDim S50000x1 ![0] bcast_S50000_S50000x1_0
        (maximumf
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 d)
            (broadcastInDim S800000 ![] bcast_S_S800000 (constant (F := Ideal) S_ .f32 0x3F800000#32)))
          (broadcastInDim S50000 ![] bcast_S_S50000 (constant (F := Ideal) S_ .f32 0x3F800000#32)))))

/-- A 128×128 weight matrix transposed. -/
def wT (W : FVec Ideal S128x128 .f32) : FVec Ideal S128x128 .f32 := transpose S128x128 [1, 0] W transposes_S128x128_S128x128_1_0

/-- A bias vector as one row. -/
def bRow (b : FVec Ideal S128 .f32) : FVec Ideal S1x128 .f32 := shapeCast _ b shapeCasts_S128_S1x128

/-- The float the integer zero converts to: the padding value. -/
def padZero : FVec Ideal S_ .f32 := sitofp (F := Ideal) .f32 (constantI S_ 32 0#32)

/-- The classifier's first weight matrix transposed, 64 zero columns appended. -/
def wc1Pad (Wc1 : FVec Ideal S64x128 .f32) : FVec Ideal S128x128 .f32 :=
  pad S128x128 ![0, 0] ![0, 64] ![0, 0] (transpose S128x64 [1, 0] Wc1 transposes_S64x128_S128x64_1_0) padZero pads_S128x64_S128x128_000_0640 h_S_

/-- The classifier's first bias, 64 zeros appended, as one row. -/
def bc1Row (bc1 : FVec Ideal S64 .f32) : FVec Ideal S1x128 .f32 :=
  shapeCast _ (pad S128 ![0] ![64] ![0] bc1 padZero pads_S64_S128_0640 h_S_) shapeCasts_S128_S1x128

/-- The classifier's second weight matrix transposed, 64 zero rows appended. -/
def wc2Pad (Wc2 : FVec Ideal S2x64 .f32) : FVec Ideal S128x2 .f32 :=
  pad S128x2 ![0, 0] ![64, 0] ![0, 0] (transpose S64x2 [1, 0] Wc2 transposes_S2x64_S64x2_1_0) padZero pads_S64x2_S128x2_0640_000 h_S_

/-- The classifier's second bias as one row. -/
def bc2Row (bc2 : FVec Ideal S2 .f32) : FVec Ideal S1x2 .f32 := shapeCast _ bc2 shapeCasts_S2_S1x2

/-- One layer on the graph: the features, and their neighbour mean along the edge list. -/
def layer (x : FVec Ideal S50000x128 .f32) (e : (⟨S2x800000, .i32⟩ : BufTy).Contents (Elt Ideal))
    (Wl : FVec Ideal S128x128 .f32) (bl : FVec Ideal S128 .f32) (Wr : FVec Ideal S128x128 .f32) : FVec Ideal S50000x128 .f32 :=
  lin x (meanAgg x (srcIds e) (dstIds e)) (wT Wl) (wT Wr) (bRow bl)

variable (x : FVec Ideal S50000x128 .f32) (e : (⟨S2x800000, .i32⟩ : BufTy).Contents (Elt Ideal))
  (W1l : FVec Ideal S128x128 .f32) (b1l : FVec Ideal S128 .f32) (W1r : FVec Ideal S128x128 .f32)
  (W2l : FVec Ideal S128x128 .f32) (b2l : FVec Ideal S128 .f32) (W2r : FVec Ideal S128x128 .f32)
  (W3l : FVec Ideal S128x128 .f32) (b3l : FVec Ideal S128 .f32) (W3r : FVec Ideal S128x128 .f32)
  (Wc1 : FVec Ideal S64x128 .f32) (bc1 : FVec Ideal S64 .f32) (Wc2 : FVec Ideal S2x64 .f32) (bc2 : FVec Ideal S2 .f32)

/-- The first hidden features. -/
def hid1 : FVec Ideal S50000x128 .f32 := relu (layer x e W1l b1l W1r)
/-- The second hidden features. -/
def hid2 : FVec Ideal S50000x128 .f32 := relu (layer (hid1 x e W1l b1l W1r) e W2l b2l W2r)
/-- The embedding: the third layer, not rectified. -/
def emb : FVec Ideal S50000x128 .f32 := layer (hid2 x e W1l b1l W1r W2l b2l W2r) e W3l b3l W3r
/-- The two class scores of every node. -/
def out : FVec Ideal S50000x2 .f32 :=
  cls (emb x e W1l b1l W1r W2l b2l W2r W3l b3l W3r) (wc1Pad Wc1) (bc1Row bc1) (wc2Pad Wc2) (bc2Row bc2)

end Cert.Sage

end
-- ==== Proof.Chain1.lean ====
import proofs.«116254_j15281493639283_1_alg».proof.Proof.Gen.KernelIdeal.Frame
import proofs.«116254_j15281493639283_1_alg».proof.Proof.SageNet
import Idealize.ShloMosaic.Lib.StableHlo.Run

/-!
  What the host operations before the first launch leave in each buffer.

  Before the first launch the program cuts the edge list into its source and destination rows, transposes the six
  layer weights, lays the three layer biases out as rows, transposes and zero-pads the classifier's weights and biases,
  and computes the neighbour mean of the input features.  Each buffer's contents at the first launch is therefore a
  named function of the argument arrays; the neighbour mean is kept as one unopened function.
-/

set_option maxRecDepth 16384

noncomputable section

namespace Cert.KernelIdeal.Chain

open Idealize.ShloMosaic Idealize.ShloMosaic.TcCoe Idealize.ShloMosaic.StableHlo
open Idealize.SL Idealize.SL.Sem
open Cert.KernelIdeal Cert.KernelIdeal.Gen

variable (m : (ℓ : Loc nD τ sig) → Buf (Elt Ideal) ℓ) (ρ : Dev nD → PrngReg) (c : Dev nD)

/-- Reads one buffer through the seven stretches of host operations before the first launch: each operation's result at
    its own buffer is its function of its operands' contents, at any other buffer what was there. -/
local macro "read_first" : tactic =>
  `(tactic| (dsimp only [W7, W6, W5, W4, W3, W2, W1]
             simp only [hostOps0, hostOps0_1, hostOps0_2, hostOps0_3, hostOps0_4, hostOps0_5, hostOps0_6]
             after_results_simp
             try rfl))

/-- The features are the first argument, untouched. -/
theorem w7_arg0 : W7 m ρ c (Proc.devRef .tc main_arg0) = m ((c : Thread nD τ).loc main_arg0) := by
  read_first

/-- The source row of the edge list. -/
theorem w7_v1 : W7 m ρ c (Proc.devRef .tc main_v1) = Cert.Sage.srcIds (m ((c : Thread nD τ).loc main_arg1)) := by
  read_first

/-- The destination row of the edge list. -/
theorem w7_v3 : W7 m ρ c (Proc.devRef .tc main_v3) = Cert.Sage.dstIds (m ((c : Thread nD τ).loc main_arg1)) := by
  read_first

/-- The first layer's left weights, transposed. -/
theorem w7_v4 : W7 m ρ c (Proc.devRef .tc main_v4) = Cert.Sage.wT (m ((c : Thread nD τ).loc main_arg2)) := by
  read_first

/-- The first layer's right weights, transposed. -/
theorem w7_v5 : W7 m ρ c (Proc.devRef .tc main_v5) = Cert.Sage.wT (m ((c : Thread nD τ).loc main_arg4)) := by
  read_first

/-- The second layer's left weights, transposed. -/
theorem w7_v6 : W7 m ρ c (Proc.devRef .tc main_v6) = Cert.Sage.wT (m ((c : Thread nD τ).loc main_arg5)) := by
  read_first

/-- The second layer's right weights, transposed. -/
theorem w7_v7 : W7 m ρ c (Proc.devRef .tc main_v7) = Cert.Sage.wT (m ((c : Thread nD τ).loc main_arg7)) := by
  read_first

/-- The third layer's left weights, transposed. -/
theorem w7_v8 : W7 m ρ c (Proc.devRef .tc main_v8) = Cert.Sage.wT (m ((c : Thread nD τ).loc main_arg8)) := by
  read_first

/-- The third layer's right weights, transposed. -/
theorem w7_v9 : W7 m ρ c (Proc.devRef .tc main_v9) = Cert.Sage.wT (m ((c : Thread nD τ).loc main_arg10)) := by
  read_first

/-- The first layer's bias as a row. -/
theorem w7_v10 : W7 m ρ c (Proc.devRef .tc main_v10) = Cert.Sage.bRow (m ((c : Thread nD τ).loc main_arg3)) := by
  read_first

/-- The second layer's bias as a row. -/
theorem w7_v11 : W7 m ρ c (Proc.devRef .tc main_v11) = Cert.Sage.bRow (m ((c : Thread nD τ).loc main_arg6)) := by
  read_first

/-- The third layer's bias as a row. -/
theorem w7_v12 : W7 m ρ c (Proc.devRef .tc main_v12) = Cert.Sage.bRow (m ((c : Thread nD τ).loc main_arg9)) := by
  read_first

/-- The classifier's first weights, transposed and padded with zero columns. -/
theorem w7_v14 : W7 m ρ c (Proc.devRef .tc main_v14) = Cert.Sage.wc1Pad (m ((c : Thread nD τ).loc main_arg11)) := by
  read_first

/-- The classifier's first bias, padded with zeros, as a row. -/
theorem w7_v16 : W7 m ρ c (Proc.devRef .tc main_v16) = Cert.Sage.bc1Row (m ((c : Thread nD τ).loc main_arg12)) := by
  read_first

/-- The classifier's second weights, transposed and padded with zero rows. -/
theorem w7_v18 : W7 m ρ c (Proc.devRef .tc main_v18) = Cert.Sage.wc2Pad (m ((c : Thread nD τ).loc main_arg13)) := by
  read_first

/-- The classifier's second bias as a row. -/
theorem w7_v19 : W7 m ρ c (Proc.devRef .tc main_v19) = Cert.Sage.bc2Row (m ((c : Thread nD τ).loc main_arg14)) := by
  read_first

set_option maxHeartbeats 8000000 in
/-- The neighbour mean of the input features along the edge list. -/
theorem w7_v38 : W7 m ρ c (Proc.devRef .tc main_v38)
    = Cert.Sage.meanAgg (m ((c : Thread nD τ).loc main_arg0)) (Cert.Sage.srcIds (m ((c : Thread nD τ).loc main_arg1)))
        (Cert.Sage.dstIds (m ((c : Thread nD τ).loc main_arg1))) := by
  read_first

end Cert.KernelIdeal.Chain

end
-- ==== Proof.LibPlainDot.lean ====
/-
  A rank-2 matrix product read at an index, on the extended reals.

  A product of an M×K by a K×N operand whose dimension numbers contract the left operand's axis 1 with the right
  operand's axis 0, with no batch axis, has at row p and column q the value  ∑ k, l (p, k) * r (k, q).  This holds
  both for the accumulating product started from the zero array and for the host's general dot, whatever name the
  program's dimension record has: a record with those six lists is the plain one.  Because the value at (p, q)
  reads only row p of the left operand, a block of rows of a product is the product of that block of rows.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- A dimension record of an M×K by K×N product with contraction [1]×[0], free axes [0] and [1] and no batch axis
    is the plain record: the side condition is a proposition, so the six lists determine it. -/
theorem eq_plain {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain M K N := by
  cases d
  simp only at h1 h2 h3 h4 h5 h6
  subst h1 h2 h3 h4 h5 h6
  rfl

/-- The plain record contracts over one axis of extent K. -/
abbrev kEquiv (M K N : Nat) : (DotDims.plain M K N).contr.Idx ≃ Fin K := contrEquiv1 (DotDims.plain M K N) K rfl rfl

/-- The left operand's index at result (p, q) and contraction position k is (p, k). -/
theorem lhsIdx_plain {M K N : Nat} (p : Fin M) (q : Fin N) (k : Fin K) :
    (DotDims.plain M K N).lhsIdx (ix2 p q) ((kEquiv M K N).symm k) = ix2 p k := by
  funext a
  apply Fin.ext
  match a with
  | ⟨0, _⟩ => rfl
  | ⟨1, _⟩ =>
    exact ((DotDims.plain M K N).lhsIdx_val_of_single rfl (ix2 p q) _).trans
      (contrEquiv1_symm_val (DotDims.plain M K N) K rfl rfl k)

/-- The right operand's index at result (p, q) and contraction position k is (k, q). -/
theorem rhsIdx_plain {M K N : Nat} (p : Fin M) (q : Fin N) (k : Fin K) :
    (DotDims.plain M K N).rhsIdx (ix2 p q) ((kEquiv M K N).symm k) = ix2 k q := by
  funext a
  apply Fin.ext
  match a with
  | ⟨0, _⟩ =>
    exact ((DotDims.plain M K N).rhsIdx_val_of_single rfl (ix2 p q) _).trans
      (contrEquiv1_symm_val (DotDims.plain M K N) K rfl rfl k)
  | ⟨1, _⟩ => rfl

/-- The sum over the plain record's contraction positions, re-indexed by k below K. -/
theorem sum_plain {M K N : Nat} {φ₁ φ₂ : FTy} (l : FVec Ideal ⟨2, ![M, K]⟩ φ₁) (r : FVec Ideal ⟨2, ![K, N]⟩ φ₂)
    (p : Fin M) (q : Fin N) :
    (∑ c : (DotDims.plain M K N).contr.Idx,
        l ((DotDims.plain M K N).lhsIdx (ix2 p q) c) * r ((DotDims.plain M K N).rhsIdx (ix2 p q) c) : EReal)
      = ∑ k : Fin K, l (ix2 p k) * r (ix2 k q) := by
  rw [← Equiv.sum_comp (kEquiv M K N).symm]
  refine Finset.sum_congr rfl fun k _ => ?_
  rw [lhsIdx_plain, rhsIdx_plain]

/-- The accumulating product started from the zero array, at (p, q): the sum over k of l (p, k) * r (k, q). -/
theorem matmul_zero_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) := by
  subst hd
  rw [Ideal.matmul_constant_zero_apply]
  exact sum_plain l r p q

/-- The host's general dot at (p, q): the same sum. -/
theorem dotGeneral_apply {M K N : Nat} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) := by
  subst hd
  rw [Ideal.dotGeneral_apply]
  exact sum_plain l r p q

end Idealize.ShloMosaic.PlainDot

end
-- ==== Proof.Payload.lean ====
/-
  The arithmetic of the three kernels, index by index, on the extended reals.

  Each kernel body narrows its loaded blocks (the identity on extended reals), forms two matrix products into a zero
  accumulator, adds them, adds the bias row to every row and, in the first two kernels, takes the maximum with zero.
  Read at row p and column q this is  (∑ k, x (p,k) * wl (k,q)) + (∑ k, mean (p,k) * wr (k,q)) + b (0,q),  the layer of
  the specification, in the same order of additions.  The last kernel continues with the classifier: the rectified
  dense layer on its embedding, a product with the 128×2 weights and the second bias row.
-/
import proofs.«116254_j15281493639283_1_alg».proof.Proof.Gen.KernelIdeal.Skeleton
import proofs.«116254_j15281493639283_1_alg».proof.Proof.SageSpec
import proofs.«116254_j15281493639283_1_alg».proof.Proof.LibPlainDot
import Idealize.ShloMosaic.Lib.ValueLayout
import Idealize.ShloMosaic.Lib.Pipeline.Value

noncomputable section

open scoped BigOperators

namespace Cert.Sage.Pay

open Idealize.ShloMosaic Idealize.ShloMosaic.ValueIdx Cert.KernelIdeal Cert.KernelIdeal.Gen

/-- A product of two narrowed operands into the zero array, at (p, q): row p of the left against column q of the
    right.  Narrowing is the identity on extended reals. -/
theorem mm_apply {M K N : Nat} (d : DotDims ⟨2, ![M, K]⟩ ⟨2, ![K, N]⟩ ⟨2, ![M, N]⟩) (hd : d = DotDims.plain M K N)
    (l : Mat M K) (r : Mat K N) (hb : FTy.bits .bf16 < FTy.bits .f32) (p : Fin M) (q : Fin N) :
    matmul d none (truncf .bf16 l hb) (truncf .bf16 r hb) (constant (F := Ideal) ⟨2, ![M, N]⟩ .f32 0x00000000#32) (ix2 p q)
      = dot l r p q :=
  (PlainDot.matmul_zero_apply d hd none (truncf .bf16 l hb) (truncf .bf16 r hb) p q).trans rfl

/-- The same with the right operand reshaped to its own shape first. -/
theorem mm_cast_apply {M K N : Nat} (d : DotDims ⟨2, ![M, K]⟩ ⟨2, ![K, N]⟩ ⟨2, ![M, N]⟩) (hd : d = DotDims.plain M K N)
    (l : Mat M K) (r : Mat K N) (hb : FTy.bits .bf16 < FTy.bits .f32)
    (hc : (⟨2, ![K, N]⟩ : Shape).ShapeCasts ⟨2, ![K, N]⟩) (p : Fin M) (q : Fin N) :
    matmul d none (truncf .bf16 l hb) (truncf .bf16 (shapeCast ⟨2, ![K, N]⟩ r hc) hb)
        (constant (F := Ideal) ⟨2, ![M, N]⟩ .f32 0x00000000#32) (ix2 p q)
      = dot l r p q := by
  rw [shapeCast_self]
  exact mm_apply d hd l r hb p q

/-- A bias row reshaped to its own shape and broadcast over the rows, at (p, q): the row at q. -/
theorem bias_apply {a b : Nat} (v : Mat 1 b) (hc : (⟨2, ![1, b]⟩ : Shape).ShapeCasts ⟨2, ![1, b]⟩)
    (h : (⟨2, ![1, b]⟩ : Shape).Broadcasts ⟨2, ![a, b]⟩) (p : Fin a) (q : Fin b) :
    broadcastTo ⟨2, ![a, b]⟩ (shapeCast ⟨2, ![1, b]⟩ v hc) h (ix2 p q) = v (ix2 (0 : Fin 1) q) := by
  rw [shapeCast_self]
  exact broadcastTo_1b_ab_apply v h p q

/-- The scalar whose word is all zeros is zero. -/
theorem zero_word : (Scalar.ofBits (F := Ideal) .f32 0x00000000#32 : EReal) = 0 := Ideal.ofBits_zero_f32

theorem hd128 : dot_S5000x128_S128x128_S5000x128_1_0_0_1_n_n = DotDims.plain 5000 128 128 :=
  PlainDot.eq_plain _ rfl rfl rfl rfl rfl rfl

theorem hd2 : dot_S5000x128_S128x2_S5000x2_1_0_0_1_n_n = DotDims.plain 5000 128 2 :=
  PlainDot.eq_plain _ rfl rfl rfl rfl rfl rfl

/-- The first kernel's stored block is the rectified layer. -/
theorem pay0 (x0 x1 : FVec Ideal S5000x128 .f32) (x2 x3 : FVec Ideal S128x128 .f32) (x4 : FVec Ideal S1x128 .f32) :
    k0_pay1 (F := Ideal) x0 x1 x2 x3 x4 = relu (lin x0 x1 x2 x3 x4) := by
  funext j
  obtain ⟨p, q, rfl⟩ : ∃ (p : Fin 5000) (q : Fin 128), j = ix2 p q := ⟨j 0, j 1, eq_ix2 j⟩
  rw [relu_apply, lin_apply]
  unfold k0_pay1
  rw [shapeCast_self x1]
  show max ((matmul _ none _ _ _ (ix2 p q) + matmul _ none _ _ _ (ix2 p q)) + broadcastTo _ _ _ (ix2 p q)) _ = _
  rw [mm_cast_apply _ hd128, mm_cast_apply _ hd128, bias_apply]
  exact congrArg (max _) zero_word

/-- The second kernel's stored block is the rectified layer. -/
theorem pay1 (x0 x1 : FVec Ideal S5000x128 .f32) (x2 x3 : FVec Ideal S128x128 .f32) (x4 : FVec Ideal S1x128 .f32) :
    k1_pay1 (F := Ideal) x0 x1 x2 x3 x4 = relu (lin x0 x1 x2 x3 x4) := by
  funext j
  obtain ⟨p, q, rfl⟩ : ∃ (p : Fin 5000) (q : Fin 128), j = ix2 p q := ⟨j 0, j 1, eq_ix2 j⟩
  rw [relu_apply, lin_apply]
  unfold k1_pay1
  rw [shapeCast_self x0, shapeCast_self x1]
  show max ((matmul _ none _ _ _ (ix2 p q) + matmul _ none _ _ _ (ix2 p q)) + broadcastTo _ _ _ (ix2 p q)) _ = _
  rw [mm_cast_apply _ hd128, mm_cast_apply _ hd128, bias_apply]
  exact congrArg (max _) zero_word

/-- The last kernel's embedding block is the layer, not rectified. -/
theorem pay2_emb (x0 x1 : FVec Ideal S5000x128 .f32) (x2 x3 : FVec Ideal S128x128 .f32) (x4 : FVec Ideal S1x128 .f32) :
    k2_pay2 (F := Ideal) x0 x1 x2 x3 x4 = lin x0 x1 x2 x3 x4 := by
  funext j
  obtain ⟨p, q, rfl⟩ : ∃ (p : Fin 5000) (q : Fin 128), j = ix2 p q := ⟨j 0, j 1, eq_ix2 j⟩
  rw [lin_apply]
  unfold k2_pay2
  rw [shapeCast_self x0, shapeCast_self x1]
  show (matmul _ none _ _ _ (ix2 p q) + matmul _ none _ _ _ (ix2 p q)) + broadcastTo _ _ _ (ix2 p q) = _
  rw [mm_cast_apply _ hd128, mm_cast_apply _ hd128, bias_apply]

/-- The classifier's hidden block, narrowed: the rectified dense layer on the embedding, at (p, k). -/
theorem pay3_apply (x0 x1 : FVec Ideal S5000x128 .f32) (x2 x3 : FVec Ideal S128x128 .f32) (x4 : FVec Ideal S1x128 .f32)
    (x5 : FVec Ideal S128x128 .f32) (x6 : FVec Ideal S1x128 .f32) (p : Fin 5000) (k : Fin 128) :
    k2_pay3 (F := Ideal) x0 x1 x2 x3 x4 x5 x6 (ix2 p k)
      = max (dot (lin x0 x1 x2 x3 x4) x5 p k + x6 (ix2 (0 : Fin 1) k)) 0 := by
  unfold k2_pay3
  rw [pay2_emb]
  show max (matmul _ none _ _ _ (ix2 p k) + broadcastTo _ _ _ (ix2 p k)) _ = _
  rw [mm_cast_apply _ hd128, bias_apply]
  exact congrArg (max _) zero_word

/-- The classifier's second weight block, narrowed: itself. -/
theorem pay4_apply (x7 : FVec Ideal S128x2 .f32) (i : S128x2.Idx) : k2_pay4 (F := Ideal) x7 i = x7 i := by
  unfold k2_pay4
  rw [shapeCast_self]
  rfl

/-- A product into the zero array at (p, q), operands as they are. -/
theorem mm0_apply {M K N : Nat} (d : DotDims ⟨2, ![M, K]⟩ ⟨2, ![K, N]⟩ ⟨2, ![M, N]⟩) (hd : d = DotDims.plain M K N)
    (l : FVec Ideal ⟨2, ![M, K]⟩ .bf16) (r : FVec Ideal ⟨2, ![K, N]⟩ .bf16) (p : Fin M) (q : Fin N) :
    matmul d none l r (constant (F := Ideal) ⟨2, ![M, N]⟩ .f32 0x00000000#32) (ix2 p q)
      = ∑ k : Fin K, l (ix2 p k) * r (ix2 k q) :=
  PlainDot.matmul_zero_apply d hd none l r p q

/-- The last kernel's output block is the classifier on the layer. -/
theorem pay2_out (x0 x1 : FVec Ideal S5000x128 .f32) (x2 x3 : FVec Ideal S128x128 .f32) (x4 : FVec Ideal S1x128 .f32)
    (x5 : FVec Ideal S128x128 .f32) (x6 : FVec Ideal S1x128 .f32) (x7 : FVec Ideal S128x2 .f32) (x8 : FVec Ideal S1x2 .f32) :
    k2_pay1 (F := Ideal) (k2_pay3 x0 x1 x2 x3 x4 x5 x6) (k2_pay4 x7) (constant S5000x2 .f32 0x00000000#32) x8
      = cls (lin x0 x1 x2 x3 x4) x5 x6 x7 x8 := by
  funext j
  obtain ⟨p, c, rfl⟩ : ∃ (p : Fin 5000) (c : Fin 2), j = ix2 p c := ⟨j 0, j 1, eq_ix2 j⟩
  rw [cls_apply]
  unfold k2_pay1
  show matmul _ none _ _ _ (ix2 p c) + broadcastTo _ _ _ (ix2 p c) = _
  rw [mm0_apply _ hd2, bias_apply]
  refine congrArg (· + x8 (ix2 (0 : Fin 1) c)) (Finset.sum_congr rfl fun k _ => ?_)
  rw [pay3_apply, pay4_apply]

end Cert.Sage.Pay

end
-- ==== Proof.Reg0.lean ====
import proofs.«116254_j15281493639283_1_alg».proof.Proof.Gen.KernelIdeal.Frame
import proofs.«116254_j15281493639283_1_alg».proof.Proof.SageSpec
import proofs.«116254_j15281493639283_1_alg».proof.Proof.Payload
import Idealize.ShloMosaic.Lib.Pipeline.Value

/-!
  The first launch, read as one whole-array function.

  The launch walks ten blocks of 5000 rows.  At block t it reads rows 5000·t … 5000·t + 4999 of the features and of
  the neighbour mean, the two whole weight matrices and the whole bias row, and writes rows 5000·t … of the result.
  A layer's row reads only the same row of the features and of the mean, so what block t writes is block t of the
  layer of the whole arrays; the ten blocks tile the 50000 rows, so the result array ends holding the rectified layer.
-/

set_option maxRecDepth 16384

noncomputable section

namespace Cert.KernelIdeal.Reg0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the row-blocked windows sit at block t of the rows, the weights and the bias
    at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What the result array ends holding: the rectified layer of the arrays the launch finds. -/
def G (c : Dev nD) : FVec Ideal S50000x128 .f32 :=
  Cert.Sage.relu (Cert.Sage.lin (V c main_arg0) (V c main_v38) (V c main_v4) (V c main_v5) (V c main_v10))

theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [Cert.Sage.Pay.pay0]
  obtain ⟨e00, e01, e10, e11, e20, e21, e30, e31, e40, e41, e50, e51⟩ := idx_facts t
  have hN : grid0.N = 10 := N_0
  have ht : t.val < 10 := hN ▸ t.isLt
  funext j
  obtain ⟨p, q, rfl⟩ : ∃ (p : Fin 5000) (q : Fin 128), j = ix2 p q := ⟨j 0, j 1, eq_ix2 j⟩
  have hp : p.val < 5000 := p.isLt
  have hemb : ((cfg0.win 5).blk t).view.emb (ix2 p q) = ix2 (⟨t.val * 5000 + p.val, by omega⟩ : Fin 50000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  show Cert.Sage.relu (Cert.Sage.lin (iblk0 V c 0 t) (iblk0 V c 1 t) (iblk0 V c 2 t) (iblk0 V c 3 t) (iblk0 V c 4 t)) (ix2 p q)
      = G V c (((cfg0.win 5).blk t).view.emb (ix2 p q))
  rw [hemb]
  have h2 : iblk0 V c 2 t = V c main_v4 := by
    funext y
    show V c main_v4 (((cfg0.win 2).blk t).view.emb y) = V c main_v4 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  have h3 : iblk0 V c 3 t = V c main_v5 := by
    funext y
    show V c main_v5 (((cfg0.win 3).blk t).view.emb y) = V c main_v5 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  have h4 : iblk0 V c 4 t = V c main_v10 := by
    funext y
    show V c main_v10 (((cfg0.win 4).blk t).view.emb y) = V c main_v10 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  rw [h2, h3, h4]
  unfold G
  rw [Cert.Sage.relu_apply, Cert.Sage.relu_apply]
  refine congrArg (fun z => max z 0) (Cert.Sage.lin_rows _ _ _ _ _ _ _ p _ q (fun k => ?_) (fun k => ?_))
  · show V c main_arg0 (((cfg0.win 0).blk t).view.emb (ix2 p k)) = V c main_arg0 (ix2 _ k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_v38 (((cfg0.win 1).blk t).view.emb (ix2 p k)) = V c main_v38 (ix2 _ k)
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 128 + 1 * k.val = k.val; omega

/-- An index of the result array is in block t iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v39).slice (win0_5.rect t)).set ↔ _
  rw [View.set_slice_whole, Rect.mem_set_unit]
  exact Iff.rfl

/-- Row r of the result lies in block r / 5000: the ten blocks tile the array. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  have hlt : (i 0).val / 5000 < grid0.N := by omega
  obtain ⟨-, -, -, -, -, -, -, -, -, -, e50, e51⟩ := idx_facts ⟨(i 0).val / 5000, hlt⟩
  have e50' : win0_5.index ⟨(i 0).val / 5000, hlt⟩ (0 : Fin 2) = (i 0).val / 5000 := e50
  refine ⟨⟨(i 0).val / 5000, hlt⟩, flush0_5 _, ?_⟩
  rw [mem_blk]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    omega
  | ⟨1, _⟩ =>
    show win0_5.index ⟨(i 0).val / 5000, hlt⟩ (1 : Fin 2) * 128 ≤ (i 1).val ∧ (i 1).val < win0_5.index ⟨(i 0).val / 5000, hlt⟩ (1 : Fin 2) * 128 + 128
    omega

/-- The result array after the launch: the rectified layer of the arrays the launch finds. -/
theorem final (c : Dev nD) : (dat0 V c).arrAt 5 cfg0.N = G V c :=
  (dat0 V c).arrAt_eq_of_cover 5 (G V c) (fun t _ => flushed_eq V c t) (cover)

end Cert.KernelIdeal.Reg0

end
-- ==== Proof.Reg1.lean ====
import proofs.«116254_j15281493639283_1_alg».proof.Proof.Gen.KernelIdeal.Frame
import proofs.«116254_j15281493639283_1_alg».proof.Proof.SageSpec
import proofs.«116254_j15281493639283_1_alg».proof.Proof.Payload
import Idealize.ShloMosaic.Lib.Pipeline.Value

/-!
  The second launch, read as one whole-array function.

  The launch walks ten blocks of 5000 rows.  At block t it reads rows 5000·t … 5000·t + 4999 of the features and of
  the neighbour mean, the two whole weight matrices and the whole bias row, and writes rows 5000·t … of the result.
  A layer's row reads only the same row of the features and of the mean, so what block t writes is block t of the
  layer of the whole arrays; the ten blocks tile the 50000 rows, so the result array ends holding the rectified layer.
-/

set_option maxRecDepth 16384

noncomputable section

namespace Cert.KernelIdeal.Reg1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the row-blocked windows sit at block t of the rows, the weights and the bias
    at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What the result array ends holding: the rectified layer of the arrays the launch finds. -/
def G (c : Dev nD) : FVec Ideal S50000x128 .f32 :=
  Cert.Sage.relu (Cert.Sage.lin (V c main_v39) (V c main_v58) (V c main_v6) (V c main_v7) (V c main_v11))

theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [Cert.Sage.Pay.pay1]
  obtain ⟨e00, e01, e10, e11, e20, e21, e30, e31, e40, e41, e50, e51⟩ := idx_facts t
  have hN : grid1.N = 10 := N_1
  have ht : t.val < 10 := hN ▸ t.isLt
  funext j
  obtain ⟨p, q, rfl⟩ : ∃ (p : Fin 5000) (q : Fin 128), j = ix2 p q := ⟨j 0, j 1, eq_ix2 j⟩
  have hp : p.val < 5000 := p.isLt
  have hemb : ((cfg1.win 5).blk t).view.emb (ix2 p q) = ix2 (⟨t.val * 5000 + p.val, by omega⟩ : Fin 50000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  show Cert.Sage.relu (Cert.Sage.lin (iblk1 V c 0 t) (iblk1 V c 1 t) (iblk1 V c 2 t) (iblk1 V c 3 t) (iblk1 V c 4 t)) (ix2 p q)
      = G V c (((cfg1.win 5).blk t).view.emb (ix2 p q))
  rw [hemb]
  have h2 : iblk1 V c 2 t = V c main_v6 := by
    funext y
    show V c main_v6 (((cfg1.win 2).blk t).view.emb y) = V c main_v6 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  have h3 : iblk1 V c 3 t = V c main_v7 := by
    funext y
    show V c main_v7 (((cfg1.win 3).blk t).view.emb y) = V c main_v7 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  have h4 : iblk1 V c 4 t = V c main_v11 := by
    funext y
    show V c main_v11 (((cfg1.win 4).blk t).view.emb y) = V c main_v11 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  rw [h2, h3, h4]
  unfold G
  rw [Cert.Sage.relu_apply, Cert.Sage.relu_apply]
  refine congrArg (fun z => max z 0) (Cert.Sage.lin_rows _ _ _ _ _ _ _ p _ q (fun k => ?_) (fun k => ?_))
  · show V c main_v39 (((cfg1.win 0).blk t).view.emb (ix2 p k)) = V c main_v39 (ix2 _ k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · show V c main_v58 (((cfg1.win 1).blk t).view.emb (ix2 p k)) = V c main_v58 (ix2 _ k)
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega

/-- An index of the result array is in block t iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v59).slice (win1_5.rect t)).set ↔ _
  rw [View.set_slice_whole, Rect.mem_set_unit]
  exact Iff.rfl

/-- Row r of the result lies in block r / 5000: the ten blocks tile the array. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 10 := N_1
  have hlt : (i 0).val / 5000 < grid1.N := by omega
  obtain ⟨-, -, -, -, -, -, -, -, -, -, e50, e51⟩ := idx_facts ⟨(i 0).val / 5000, hlt⟩
  have e50' : win1_5.index ⟨(i 0).val / 5000, hlt⟩ (0 : Fin 2) = (i 0).val / 5000 := e50
  refine ⟨⟨(i 0).val / 5000, hlt⟩, flush1_5 _, ?_⟩
  rw [mem_blk]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    omega
  | ⟨1, _⟩ =>
    show win1_5.index ⟨(i 0).val / 5000, hlt⟩ (1 : Fin 2) * 128 ≤ (i 1).val ∧ (i 1).val < win1_5.index ⟨(i 0).val / 5000, hlt⟩ (1 : Fin 2) * 128 + 128
    omega

/-- The result array after the launch: the rectified layer of the arrays the launch finds. -/
theorem final (c : Dev nD) : (dat1 V c).arrAt 5 cfg1.N = G V c :=
  (dat1 V c).arrAt_eq_of_cover 5 (G V c) (fun t _ => flushed_eq V c t) (cover)

end Cert.KernelIdeal.Reg1

end
-- ==== Proof.Reg2.lean ====
import proofs.«116254_j15281493639283_1_alg».proof.Proof.Gen.KernelIdeal.Frame
import proofs.«116254_j15281493639283_1_alg».proof.Proof.SageSpec
import proofs.«116254_j15281493639283_1_alg».proof.Proof.Payload
import Idealize.ShloMosaic.Lib.Pipeline.Value

/-!
  The third launch, read as two whole-array functions.

  The launch walks ten blocks of 5000 rows.  At block t it reads rows 5000·t … 5000·t + 4999 of the features and of
  the neighbour mean, and the whole of the seven weight and bias arrays; it writes rows 5000·t … of the embedding
  (the layer, not rectified) and of the output (the classifier on that embedding).  A layer's row reads only the same
  row of the features and of the mean, and a classifier's row only the same row of the embedding, so what block t
  writes is block t of the layer, and of the classifier, of the whole arrays; the ten blocks tile the 50000 rows of
  both result arrays.
-/

set_option maxRecDepth 16384

noncomputable section

namespace Cert.KernelIdeal.Reg2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the row-blocked windows (the two inputs and the two results) sit at block t
    of the rows, the weights and the biases at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0
    ∧ win2_10.index t (0 : Fin 2) = t.val ∧ win2_10.index t (1 : Fin 2) = 0 :=
  (by decide +kernel : ∀ t : Fin grid2.N, _)

/-- What the embedding array ends holding: the layer of the arrays the launch finds. -/
def Gemb (c : Dev nD) : FVec Ideal S50000x128 .f32 :=
  Cert.Sage.lin (V c main_v59) (V c main_v78) (V c main_v8) (V c main_v9) (V c main_v12)

/-- What the output array ends holding: the classifier on that embedding. -/
def Gout (c : Dev nD) : FVec Ideal S50000x2 .f32 :=
  Cert.Sage.cls (Gemb V c) (V c main_v14) (V c main_v16) (V c main_v18) (V c main_v19)

/-- Window 2 has one block: the whole array. -/
theorem blk2 (c : Dev nD) (t : Fin cfg2.N) : iblk2 V c 2 t = V c main_v8 := by
  obtain ⟨-, -, -, -, e20, e21, e30, e31, e40, e41, e50, e51, e60, e61, e70, e71, e80, e81, -, -, -, -⟩ := idx_facts t
  funext y
  show V c main_v8 (((cfg2.win 2).blk t).view.emb y) = V c main_v8 y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- Window 3 has one block: the whole array. -/
theorem blk3 (c : Dev nD) (t : Fin cfg2.N) : iblk2 V c 3 t = V c main_v9 := by
  obtain ⟨-, -, -, -, e20, e21, e30, e31, e40, e41, e50, e51, e60, e61, e70, e71, e80, e81, -, -, -, -⟩ := idx_facts t
  funext y
  show V c main_v9 (((cfg2.win 3).blk t).view.emb y) = V c main_v9 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- Window 4 has one block: the whole array. -/
theorem blk4 (c : Dev nD) (t : Fin cfg2.N) : iblk2 V c 4 t = V c main_v12 := by
  obtain ⟨-, -, -, -, e20, e21, e30, e31, e40, e41, e50, e51, e60, e61, e70, e71, e80, e81, -, -, -, -⟩ := idx_facts t
  funext y
  show V c main_v12 (((cfg2.win 4).blk t).view.emb y) = V c main_v12 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Window 5 has one block: the whole array. -/
theorem blk5 (c : Dev nD) (t : Fin cfg2.N) : iblk2 V c 5 t = V c main_v14 := by
  obtain ⟨-, -, -, -, e20, e21, e30, e31, e40, e41, e50, e51, e60, e61, e70, e71, e80, e81, -, -, -, -⟩ := idx_facts t
  funext y
  show V c main_v14 (((cfg2.win 5).blk t).view.emb y) = V c main_v14 y
  refine congrArg _ (funext fun a => Fin.ext ?_)
  match a with
  | ⟨0, _⟩ => show win2_5.index t (0 : Fin 2) * 128 + 1 * (y 0).val = (y 0).val; omega
  | ⟨1, _⟩ => show win2_5.index t (1 : Fin 2) * 128 + 1 * (y 1).val = (y 1).val; omega

/-- Window 6 has one block: the whole array. -/
theorem blk6 (c : Dev nD) (t : Fin cfg2.N) : iblk2 V c 6 t = V c main_v16 := by
  obtain ⟨-, -, -, -, e20, e21, e30, e31, e40, e41, e50, e51, e60, e61, e70, e71, e80, e81, -, -, -, -⟩ := idx_facts t
  funext y
  show V c main_v16 (((cfg2.win 6).blk t).view.emb y) = V c main_v16 y
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 128 + 1 * (y 1).val = (y 1).val; omega

/-- Window 7 has one block: the whole array. -/
theorem blk7 (c : Dev nD) (t : Fin cfg2.N) : iblk2 V c 7 t = V c main_v18 := by
  obtain ⟨-, -, -, -, e20, e21, e30, e31, e40, e41, e50, e51, e60, e61, e70, e71, e80, e81, -, -, -, -⟩ := idx_facts t
  funext y
  show V c main_v18 (((cfg2.win 7).blk t).view.emb y) = V c main_v18 y
  refine congrArg _ (funext fun a => Fin.ext ?_)
  match a with
  | ⟨0, _⟩ => show win2_7.index t (0 : Fin 2) * 128 + 1 * (y 0).val = (y 0).val; omega
  | ⟨1, _⟩ => show win2_7.index t (1 : Fin 2) * 2 + 1 * (y 1).val = (y 1).val; omega

/-- Window 8 has one block: the whole array. -/
theorem blk8 (c : Dev nD) (t : Fin cfg2.N) : iblk2 V c 8 t = V c main_v19 := by
  obtain ⟨-, -, -, -, e20, e21, e30, e31, e40, e41, e50, e51, e60, e61, e70, e71, e80, e81, -, -, -, -⟩ := idx_facts t
  funext y
  show V c main_v19 (((cfg2.win 8).blk t).view.emb y) = V c main_v19 y
  refine congrArg _ (funext fun a => Fin.ext ?_)
  match a with
  | ⟨0, _⟩ => show win2_8.index t (0 : Fin 2) * 1 + 1 * (y 0).val = (y 0).val; omega
  | ⟨1, _⟩ => show win2_8.index t (1 : Fin 2) * 2 + 1 * (y 1).val = (y 1).val; omega

/-- Row p of window 0's block t is row 5000·t + p of its array. -/
theorem row0 (c : Dev nD) (t : Fin cfg2.N) (p : Fin 5000) (k : Fin 128) (h : t.val * 5000 + p.val < 50000) :
    iblk2 V c 0 t (ix2 p k) = V c main_v59 (ix2 (⟨t.val * 5000 + p.val, h⟩ : Fin 50000) k) := by
  obtain ⟨e00, e01, e10, e11, -, -, -, -, -, -, -, -, -, -, -, -, -, -, -, -, -, -⟩ := idx_facts t
  show V c main_v59 (((cfg2.win 0).blk t).view.emb (ix2 p k)) = V c main_v59 (ix2 _ k)
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

/-- Row p of window 1's block t is row 5000·t + p of its array. -/
theorem row1 (c : Dev nD) (t : Fin cfg2.N) (p : Fin 5000) (k : Fin 128) (h : t.val * 5000 + p.val < 50000) :
    iblk2 V c 1 t (ix2 p k) = V c main_v78 (ix2 (⟨t.val * 5000 + p.val, h⟩ : Fin 50000) k) := by
  obtain ⟨e00, e01, e10, e11, -, -, -, -, -, -, -, -, -, -, -, -, -, -, -, -, -, -⟩ := idx_facts t
  show V c main_v78 (((cfg2.win 1).blk t).view.emb (ix2 p k)) = V c main_v78 (ix2 _ k)
  refine congrArg _ (funext fun a => Fin.ext ?_)
  match a with
  | ⟨0, _⟩ => show win2_1.index t (0 : Fin 2) * 5000 + 1 * p.val = t.val * 5000 + p.val; omega
  | ⟨1, _⟩ => show win2_1.index t (1 : Fin 2) * 128 + 1 * k.val = k.val; omega

/-- Block t of the embedding window after the body is block t of the layer of the whole arrays. -/
theorem flushed_emb (c : Dev nD) (t : Fin cfg2.N) :
    (dat2 V c).flushed 9 t = ((cfg2.win 9).blk t).view.read (Elt Ideal) (Gemb V c) := by
  show (cfg2.win 9).cut (grid2.coords t) ((dat2 V c).after 9 t) = _
  rw [after2_9]
  unfold out2_9
  rw [View.canon_unit_zero hz]
  simp only [View.ld_unit_zero (S := S5000x128) hz, View.ld_unit_zero (S := S128x128) hz, View.ld_unit_zero (S := S1x128) hz]
  rw [Cert.Sage.Pay.pay2_emb]
  obtain ⟨-, -, -, -, -, -, -, -, -, -, -, -, -, -, -, -, -, -, e90, e91, -, -⟩ := idx_facts t
  have hN : grid2.N = 10 := N_2
  have ht : t.val < 10 := hN ▸ t.isLt
  funext j
  obtain ⟨p, q, rfl⟩ : ∃ (p : Fin 5000) (q : Fin 128), j = ix2 p q := ⟨j 0, j 1, eq_ix2 j⟩
  have hp : p.val < 5000 := p.isLt
  have hr : t.val * 5000 + p.val < 50000 := by omega
  have hemb : ((cfg2.win 9).blk t).view.emb (ix2 p q) = ix2 (⟨t.val * 5000 + p.val, hr⟩ : Fin 50000) q := by
    funext a; apply Fin.ext
    match a with
    | ⟨0, _⟩ => show win2_9.index t (0 : Fin 2) * 5000 + 1 * p.val = t.val * 5000 + p.val; omega
    | ⟨1, _⟩ => show win2_9.index t (1 : Fin 2) * 128 + 1 * q.val = q.val; omega
  show Cert.Sage.lin (iblk2 V c 0 t) (iblk2 V c 1 t) (iblk2 V c 2 t) (iblk2 V c 3 t) (iblk2 V c 4 t) (ix2 p q)
      = Gemb V c (((cfg2.win 9).blk t).view.emb (ix2 p q))
  rw [hemb, blk2, blk3, blk4]
  unfold Gemb
  exact Cert.Sage.lin_rows _ _ _ _ _ _ _ p _ q (fun k => row0 V c t p k hr) (fun k => row1 V c t p k hr)

/-- Block t of the output window after the body is block t of the classifier on the layer of the whole arrays. -/
theorem flushed_out (c : Dev nD) (t : Fin cfg2.N) :
    (dat2 V c).flushed 10 t = ((cfg2.win 10).blk t).view.read (Elt Ideal) (Gout V c) := by
  show (cfg2.win 10).cut (grid2.coords t) ((dat2 V c).after 10 t) = _
  rw [after2_10]
  unfold out2_10
  rw [View.canon_unit_zero hz]
  simp only [View.ld_unit_zero (S := S5000x128) hz, View.ld_unit_zero (S := S128x128) hz, View.ld_unit_zero (S := S1x128) hz,
    View.ld_unit_zero (S := S128x2) hz, View.ld_unit_zero (S := S1x2) hz]
  rw [Cert.Sage.Pay.pay2_out]
  obtain ⟨-, -, -, -, -, -, -, -, -, -, -, -, -, -, -, -, -, -, -, -, e100, e101⟩ := idx_facts t
  have hN : grid2.N = 10 := N_2
  have ht : t.val < 10 := hN ▸ t.isLt
  funext j
  obtain ⟨p, q, rfl⟩ : ∃ (p : Fin 5000) (q : Fin 2), j = ix2 p q := ⟨j 0, j 1, eq_ix2 j⟩
  have hp : p.val < 5000 := p.isLt
  have hr : t.val * 5000 + p.val < 50000 := by omega
  have hemb : ((cfg2.win 10).blk t).view.emb (ix2 p q) = ix2 (⟨t.val * 5000 + p.val, hr⟩ : Fin 50000) q := by
    funext a; apply Fin.ext
    match a with
    | ⟨0, _⟩ => show win2_10.index t (0 : Fin 2) * 5000 + 1 * p.val = t.val * 5000 + p.val; omega
    | ⟨1, _⟩ => show win2_10.index t (1 : Fin 2) * 2 + 1 * q.val = q.val; omega
  show Cert.Sage.cls (Cert.Sage.lin (iblk2 V c 0 t) (iblk2 V c 1 t) (iblk2 V c 2 t) (iblk2 V c 3 t) (iblk2 V c 4 t))
        (iblk2 V c 5 t) (iblk2 V c 6 t) (iblk2 V c 7 t) (iblk2 V c 8 t) (ix2 p q)
      = Gout V c (((cfg2.win 10).blk t).view.emb (ix2 p q))
  rw [hemb, blk2, blk3, blk4, blk5, blk6, blk7, blk8]
  unfold Gout Gemb
  refine Cert.Sage.cls_rows _ _ _ _ _ _ p _ q (fun k => ?_)
  exact Cert.Sage.lin_rows _ _ _ _ _ _ _ p _ k (fun k' => row0 V c t p k' hr) (fun k' => row1 V c t p k' hr)

/-- An index of window 9's array is in block t iff each coordinate is in the block's range on its axis. -/
theorem mem_blk9 (t : Fin cfg2.N) (i : S50000x128.Idx) :
    i ∈ ((cfg2.win 9).blk t).view.set ↔ ∀ a : Fin 2, win2_9.index t a * S5000x128.size a ≤ (i a).val ∧ (i a).val < win2_9.index t a * S5000x128.size a + S5000x128.size a := by
  show i ∈ ((View.whole main_v79_0).slice (win2_9.rect t)).set ↔ _
  rw [View.set_slice_whole, Rect.mem_set_unit]
  exact Iff.rfl

/-- An index of window 10's array is in block t iff each coordinate is in the block's range on its axis. -/
theorem mem_blk10 (t : Fin cfg2.N) (i : S50000x2.Idx) :
    i ∈ ((cfg2.win 10).blk t).view.set ↔ ∀ a : Fin 2, win2_10.index t a * S5000x2.size a ≤ (i a).val ∧ (i a).val < win2_10.index t a * S5000x2.size a + S5000x2.size a := by
  show i ∈ ((View.whole main_v79_1).slice (win2_10.rect t)).set ↔ _
  rw [View.set_slice_whole, Rect.mem_set_unit]
  exact Iff.rfl

/-- Row r of window 9's array lies in block r / 5000: the ten blocks tile the array. -/
theorem cover9 (i : S50000x128.Idx) :
    ∃ t : Fin cfg2.N, (cfg2.win 9).flush t = true ∧ i ∈ ((cfg2.win 9).blk t).view.set := by
  have hi0 : (i 0).val < 50000 := (i 0).isLt
  have hi1 : (i 1).val < 128 := (i 1).isLt
  have hN : grid2.N = 10 := N_2
  have hlt : (i 0).val / 5000 < grid2.N := by omega
  obtain ⟨-, -, -, -, -, -, -, -, -, -, -, -, -, -, -, -, -, -, eo0, eo1, -, -⟩ := idx_facts ⟨(i 0).val / 5000, hlt⟩
  have eo0' : win2_9.index ⟨(i 0).val / 5000, hlt⟩ (0 : Fin 2) = (i 0).val / 5000 := eo0
  refine ⟨⟨(i 0).val / 5000, hlt⟩, flush2_9 _, ?_⟩
  rw [mem_blk9]
  intro a
  match a with
  | ⟨0, _⟩ =>
    show win2_9.index ⟨(i 0).val / 5000, hlt⟩ (0 : Fin 2) * 5000 ≤ (i 0).val ∧ (i 0).val < win2_9.index ⟨(i 0).val / 5000, hlt⟩ (0 : Fin 2) * 5000 + 5000
    omega
  | ⟨1, _⟩ =>
    show win2_9.index ⟨(i 0).val / 5000, hlt⟩ (1 : Fin 2) * 128 ≤ (i 1).val ∧ (i 1).val < win2_9.index ⟨(i 0).val / 5000, hlt⟩ (1 : Fin 2) * 128 + 128
    omega

/-- Row r of window 10's array lies in block r / 5000: the ten blocks tile the array. -/
theorem cover10 (i : S50000x2.Idx) :
    ∃ t : Fin cfg2.N, (cfg2.win 10).flush t = true ∧ i ∈ ((cfg2.win 10).blk t).view.set := by
  have hi0 : (i 0).val < 50000 := (i 0).isLt
  have hi1 : (i 1).val < 2 := (i 1).isLt
  have hN : grid2.N = 10 := N_2
  have hlt : (i 0).val / 5000 < grid2.N := by omega
  obtain ⟨-, -, -, -, -, -, -, -, -, -, -, -, -, -, -, -, -, -, -, -, eo0, eo1⟩ := idx_facts ⟨(i 0).val / 5000, hlt⟩
  have eo0' : win2_10.index ⟨(i 0).val / 5000, hlt⟩ (0 : Fin 2) = (i 0).val / 5000 := eo0
  refine ⟨⟨(i 0).val / 5000, hlt⟩, flush2_10 _, ?_⟩
  rw [mem_blk10]
  intro a
  match a with
  | ⟨0, _⟩ =>
    show win2_10.index ⟨(i 0).val / 5000, hlt⟩ (0 : Fin 2) * 5000 ≤ (i 0).val ∧ (i 0).val < win2_10.index ⟨(i 0).val / 5000, hlt⟩ (0 : Fin 2) * 5000 + 5000
    omega
  | ⟨1, _⟩ =>
    show win2_10.index ⟨(i 0).val / 5000, hlt⟩ (1 : Fin 2) * 2 ≤ (i 1).val ∧ (i 1).val < win2_10.index ⟨(i 0).val / 5000, hlt⟩ (1 : Fin 2) * 2 + 2
    omega

/-- The embedding array after the launch: the layer of the arrays the launch finds. -/
theorem final_emb (c : Dev nD) : (dat2 V c).arrAt 9 cfg2.N = Gemb V c :=
  (dat2 V c).arrAt_eq_of_cover 9 (Gemb V c) (fun t _ => flushed_emb V c t) (cover9)

/-- The output array after the launch: the classifier on that layer. -/
theorem final_out (c : Dev nD) : (dat2 V c).arrAt 10 cfg2.N = Gout V c :=
  (dat2 V c).arrAt_eq_of_cover 10 (Gout V c) (fun t _ => flushed_out V c t) (cover10)

end Cert.KernelIdeal.Reg2

end
-- ==== Proof.Chain2.lean ====
import proofs.«116254_j15281493639283_1_alg».proof.Proof.Chain1
import proofs.«116254_j15281493639283_1_alg».proof.Proof.Reg0
import proofs.«116254_j15281493639283_1_alg».proof.Proof.Reg1
import proofs.«116254_j15281493639283_1_alg».proof.Proof.Reg2
import proofs.«116254_j15281493639283_1_alg».proof.Proof.Gen.KernelIdeal.Frame
import proofs.«116254_j15281493639283_1_alg».proof.Proof.SageNet
import Idealize.ShloMosaic.Lib.StableHlo.Run

/-!
  The kernel's run, boundary by boundary, down to the launch memory.

  The program is three launches among stretches of host operations.  Each launch leaves in its result array a layer of
  what it finds in its operand arrays; each host stretch between two launches computes the neighbour mean of the
  previous launch's result and leaves every other array alone.  Read from the launch memory forward, the operand
  arrays of the first launch hold the features, their neighbour mean and the first layer's weights; its result is
  the first hidden features; the second launch's operands are those, their mean and the second layer's weights; and so
  on to the third launch, whose two result arrays end holding the embedding and the class scores of the specification.
-/

set_option maxRecDepth 16384

noncomputable section

namespace Cert.KernelIdeal.Chain

open Idealize.ShloMosaic Idealize.ShloMosaic.TcCoe Idealize.ShloMosaic.StableHlo
open Idealize.SL Idealize.SL.Sem
open Cert.KernelIdeal Cert.KernelIdeal.Gen

variable (m : (ℓ : Loc nD τ sig) → Buf (Elt Ideal) ℓ) (ρ : Dev nD → PrngReg) (c : Dev nD)

/-! ## Equal operands, equal values -/

theorem lin_congr {n : Nat} {x x' mn mn' : Cert.Sage.Mat n 128} {wl wl' wr wr' : Cert.Sage.Mat 128 128}
    {b b' : Cert.Sage.Mat 1 128} (h1 : x = x') (h2 : mn = mn') (h3 : wl = wl') (h4 : wr = wr') (h5 : b = b') :
    Cert.Sage.lin x mn wl wr b = Cert.Sage.lin x' mn' wl' wr' b' := by
  rw [h1, h2, h3, h4, h5]

theorem cls_congr {n : Nat} {e e' : Cert.Sage.Mat n 128} {w1 w1' : Cert.Sage.Mat 128 128} {b1 b1' : Cert.Sage.Mat 1 128}
    {w2 w2' : Cert.Sage.Mat 128 2} {b2 b2' : Cert.Sage.Mat 1 2}
    (h1 : e = e') (h2 : w1 = w1') (h3 : b1 = b1') (h4 : w2 = w2') (h5 : b2 = b2') :
    Cert.Sage.cls e w1 b1 w2 b2 = Cert.Sage.cls e' w1' b1' w2' b2' := by
  rw [h1, h2, h3, h4, h5]

theorem meanAgg_congr {x x' : FVec Ideal S50000x128 .f32} {s s' d d' : (⟨S800000, .i32⟩ : BufTy).Contents (Elt Ideal)}
    (h1 : x = x') (h2 : s = s') (h3 : d = d') : Cert.Sage.meanAgg x s d = Cert.Sage.meanAgg x' s' d' := by
  rw [h1, h2, h3]

/-! ## After the first launch -/

/-- The first launch leaves the first hidden features in its result array. -/
theorem w8_v39 : W8 m ρ c (Proc.devRef .tc main_v39) = (Cert.Sage.hid1 (m ((c : Thread nD τ).loc main_arg0)) (m ((c : Thread nD τ).loc main_arg1)) (m ((c : Thread nD τ).loc main_arg2)) (m ((c : Thread nD τ).loc main_arg3)) (m ((c : Thread nD τ).loc main_arg4))) := by
  refine (W8_arr m ρ c 5).trans ((Reg0.final (V7 m ρ) c).trans ?_)
  unfold Reg0.G Cert.Sage.hid1 Cert.Sage.layer
  exact congrArg Cert.Sage.relu
    (lin_congr (n := 50000) (w7_arg0 m ρ c) (w7_v38 m ρ c) (w7_v4 m ρ c) (w7_v5 m ρ c) (w7_v10 m ρ c))
theorem w8_v1 : W8 m ρ c (Proc.devRef .tc main_v1) = (Cert.Sage.srcIds (m ((c : Thread nD τ).loc main_arg1))) :=
  (W8_of_ne m ρ c main_v1 (by decide)).trans (w7_v1 m ρ c)
theorem w8_v3 : W8 m ρ c (Proc.devRef .tc main_v3) = (Cert.Sage.dstIds (m ((c : Thread nD τ).loc main_arg1))) :=
  (W8_of_ne m ρ c main_v3 (by decide)).trans (w7_v3 m ρ c)
theorem w8_v6 : W8 m ρ c (Proc.devRef .tc main_v6) = (Cert.Sage.wT (m ((c : Thread nD τ).loc main_arg5))) :=
  (W8_of_ne m ρ c main_v6 (by decide)).trans (w7_v6 m ρ c)
theorem w8_v7 : W8 m ρ c (Proc.devRef .tc main_v7) = (Cert.Sage.wT (m ((c : Thread nD τ).loc main_arg7))) :=
  (W8_of_ne m ρ c main_v7 (by decide)).trans (w7_v7 m ρ c)
theorem w8_v11 : W8 m ρ c (Proc.devRef .tc main_v11) = (Cert.Sage.bRow (m ((c : Thread nD τ).loc main_arg6))) :=
  (W8_of_ne m ρ c main_v11 (by decide)).trans (w7_v11 m ρ c)
theorem w8_v8 : W8 m ρ c (Proc.devRef .tc main_v8) = (Cert.Sage.wT (m ((c : Thread nD τ).loc main_arg8))) :=
  (W8_of_ne m ρ c main_v8 (by decide)).trans (w7_v8 m ρ c)
theorem w8_v9 : W8 m ρ c (Proc.devRef .tc main_v9) = (Cert.Sage.wT (m ((c : Thread nD τ).loc main_arg10))) :=
  (W8_of_ne m ρ c main_v9 (by decide)).trans (w7_v9 m ρ c)
theorem w8_v12 : W8 m ρ c (Proc.devRef .tc main_v12) = (Cert.Sage.bRow (m ((c : Thread nD τ).loc main_arg9))) :=
  (W8_of_ne m ρ c main_v12 (by decide)).trans (w7_v12 m ρ c)
theorem w8_v14 : W8 m ρ c (Proc.devRef .tc main_v14) = (Cert.Sage.wc1Pad (m ((c : Thread nD τ).loc main_arg11))) :=
  (W8_of_ne m ρ c main_v14 (by decide)).trans (w7_v14 m ρ c)
theorem w8_v16 : W8 m ρ c (Proc.devRef .tc main_v16) = (Cert.Sage.bc1Row (m ((c : Thread nD τ).loc main_arg12))) :=
  (W8_of_ne m ρ c main_v16 (by decide)).trans (w7_v16 m ρ c)
theorem w8_v18 : W8 m ρ c (Proc.devRef .tc main_v18) = (Cert.Sage.wc2Pad (m ((c : Thread nD τ).loc main_arg13))) :=
  (W8_of_ne m ρ c main_v18 (by decide)).trans (w7_v18 m ρ c)
theorem w8_v19 : W8 m ρ c (Proc.devRef .tc main_v19) = (Cert.Sage.bc2Row (m ((c : Thread nD τ).loc main_arg14))) :=
  (W8_of_ne m ρ c main_v19 (by decide)).trans (w7_v19 m ρ c)

/-! ## Before the second launch

  The second stretch of host operations computes the neighbour mean of the first hidden features and writes nothing
  else that is read later. -/

theorem w9_v39 : W9 m ρ c (Proc.devRef .tc main_v39) = (Cert.Sage.hid1 (m ((c : Thread nD τ).loc main_arg0)) (m ((c : Thread nD τ).loc main_arg1)) (m ((c : Thread nD τ).loc main_arg2)) (m ((c : Thread nD τ).loc main_arg3)) (m ((c : Thread nD τ).loc main_arg4))) := by
  dsimp only [W9]; simp only [hostOps1]; after_results_simp
  exact w8_v39 m ρ c

set_option maxHeartbeats 8000000 in
/-- The neighbour mean the second launch reads is the mean of the first hidden features along the same edges. -/
theorem w9_v58 : W9 m ρ c (Proc.devRef .tc main_v58) = Cert.Sage.meanAgg (Cert.Sage.hid1 (m ((c : Thread nD τ).loc main_arg0)) (m ((c : Thread nD τ).loc main_arg1)) (m ((c : Thread nD τ).loc main_arg2)) (m ((c : Thread nD τ).loc main_arg3)) (m ((c : Thread nD τ).loc main_arg4))) (Cert.Sage.srcIds (m ((c : Thread nD τ).loc main_arg1))) (Cert.Sage.dstIds (m ((c : Thread nD τ).loc main_arg1))) := by
  dsimp only [W9]; simp only [hostOps1]; after_results_simp
  refine Eq.trans (b := Cert.Sage.meanAgg (W8 m ρ c (Proc.devRef .tc main_v39)) (W8 m ρ c (Proc.devRef .tc main_v1))
    (W8 m ρ c (Proc.devRef .tc main_v3))) rfl ?_
  exact meanAgg_congr (w8_v39 m ρ c) (w8_v1 m ρ c) (w8_v3 m ρ c)

theorem w9_v6 : W9 m ρ c (Proc.devRef .tc main_v6) = (Cert.Sage.wT (m ((c : Thread nD τ).loc main_arg5))) := by
  dsimp only [W9]; simp only [hostOps1]; after_results_simp
  exact w8_v6 m ρ c
theorem w9_v7 : W9 m ρ c (Proc.devRef .tc main_v7) = (Cert.Sage.wT (m ((c : Thread nD τ).loc main_arg7))) := by
  dsimp only [W9]; simp only [hostOps1]; after_results_simp
  exact w8_v7 m ρ c
theorem w9_v11 : W9 m ρ c (Proc.devRef .tc main_v11) = (Cert.Sage.bRow (m ((c : Thread nD τ).loc main_arg6))) := by
  dsimp only [W9]; simp only [hostOps1]; after_results_simp
  exact w8_v11 m ρ c
theorem w9_v1 : W9 m ρ c (Proc.devRef .tc main_v1) = (Cert.Sage.srcIds (m ((c : Thread nD τ).loc main_arg1))) := by
  dsimp only [W9]; simp only [hostOps1]; after_results_simp
  exact w8_v1 m ρ c
theorem w9_v3 : W9 m ρ c (Proc.devRef .tc main_v3) = (Cert.Sage.dstIds (m ((c : Thread nD τ).loc main_arg1))) := by
  dsimp only [W9]; simp only [hostOps1]; after_results_simp
  exact w8_v3 m ρ c
theorem w9_v8 : W9 m ρ c (Proc.devRef .tc main_v8) = (Cert.Sage.wT (m ((c : Thread nD τ).loc main_arg8))) := by
  dsimp only [W9]; simp only [hostOps1]; after_results_simp
  exact w8_v8 m ρ c
theorem w9_v9 : W9 m ρ c (Proc.devRef .tc main_v9) = (Cert.Sage.wT (m ((c : Thread nD τ).loc main_arg10))) := by
  dsimp only [W9]; simp only [hostOps1]; after_results_simp
  exact w8_v9 m ρ c
theorem w9_v12 : W9 m ρ c (Proc.devRef .tc main_v12) = (Cert.Sage.bRow (m ((c : Thread nD τ).loc main_arg9))) := by
  dsimp only [W9]; simp only [hostOps1]; after_results_simp
  exact w8_v12 m ρ c
theorem w9_v14 : W9 m ρ c (Proc.devRef .tc main_v14) = (Cert.Sage.wc1Pad (m ((c : Thread nD τ).loc main_arg11))) := by
  dsimp only [W9]; simp only [hostOps1]; after_results_simp
  exact w8_v14 m ρ c
theorem w9_v16 : W9 m ρ c (Proc.devRef .tc main_v16) = (Cert.Sage.bc1Row (m ((c : Thread nD τ).loc main_arg12))) := by
  dsimp only [W9]; simp only [hostOps1]; after_results_simp
  exact w8_v16 m ρ c
theorem w9_v18 : W9 m ρ c (Proc.devRef .tc main_v18) = (Cert.Sage.wc2Pad (m ((c : Thread nD τ).loc main_arg13))) := by
  dsimp only [W9]; simp only [hostOps1]; after_results_simp
  exact w8_v18 m ρ c
theorem w9_v19 : W9 m ρ c (Proc.devRef .tc main_v19) = (Cert.Sage.bc2Row (m ((c : Thread nD τ).loc main_arg14))) := by
  dsimp only [W9]; simp only [hostOps1]; after_results_simp
  exact w8_v19 m ρ c

/-! ## After the second launch -/

/-- The second launch leaves the second hidden features in its result array. -/
theorem w10_v59 : W10 m ρ c (Proc.devRef .tc main_v59) = (Cert.Sage.hid2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W10_arr m ρ c 5).trans ((Reg1.final (V9 m ρ) c).trans ?_)
  unfold Reg1.G Cert.Sage.hid2 Cert.Sage.layer
  exact congrArg Cert.Sage.relu
    (lin_congr (n := 50000) (w9_v39 m ρ c) (w9_v58 m ρ c) (w9_v6 m ρ c) (w9_v7 m ρ c) (w9_v11 m ρ c))
theorem w10_v1 : W10 m ρ c (Proc.devRef .tc main_v1) = (Cert.Sage.srcIds (m ((c : Thread nD τ).loc main_arg1))) :=
  (W10_of_ne m ρ c main_v1 (by decide)).trans (w9_v1 m ρ c)
theorem w10_v3 : W10 m ρ c (Proc.devRef .tc main_v3) = (Cert.Sage.dstIds (m ((c : Thread nD τ).loc main_arg1))) :=
  (W10_of_ne m ρ c main_v3 (by decide)).trans (w9_v3 m ρ c)
theorem w10_v8 : W10 m ρ c (Proc.devRef .tc main_v8) = (Cert.Sage.wT (m ((c : Thread nD τ).loc main_arg8))) :=
  (W10_of_ne m ρ c main_v8 (by decide)).trans (w9_v8 m ρ c)
theorem w10_v9 : W10 m ρ c (Proc.devRef .tc main_v9) = (Cert.Sage.wT (m ((c : Thread nD τ).loc main_arg10))) :=
  (W10_of_ne m ρ c main_v9 (by decide)).trans (w9_v9 m ρ c)
theorem w10_v12 : W10 m ρ c (Proc.devRef .tc main_v12) = (Cert.Sage.bRow (m ((c : Thread nD τ).loc main_arg9))) :=
  (W10_of_ne m ρ c main_v12 (by decide)).trans (w9_v12 m ρ c)
theorem w10_v14 : W10 m ρ c (Proc.devRef .tc main_v14) = (Cert.Sage.wc1Pad (m ((c : Thread nD τ).loc main_arg11))) :=
  (W10_of_ne m ρ c main_v14 (by decide)).trans (w9_v14 m ρ c)
theorem w10_v16 : W10 m ρ c (Proc.devRef .tc main_v16) = (Cert.Sage.bc1Row (m ((c : Thread nD τ).loc main_arg12))) :=
  (W10_of_ne m ρ c main_v16 (by decide)).trans (w9_v16 m ρ c)
theorem w10_v18 : W10 m ρ c (Proc.devRef .tc main_v18) = (Cert.Sage.wc2Pad (m ((c : Thread nD τ).loc main_arg13))) :=
  (W10_of_ne m ρ c main_v18 (by decide)).trans (w9_v18 m ρ c)
theorem w10_v19 : W10 m ρ c (Proc.devRef .tc main_v19) = (Cert.Sage.bc2Row (m ((c : Thread nD τ).loc main_arg14))) :=
  (W10_of_ne m ρ c main_v19 (by decide)).trans (w9_v19 m ρ c)

/-! ## Before the third launch

  The third stretch of host operations computes the neighbour mean of the second hidden features. -/

theorem w11_v59 : W11 m ρ c (Proc.devRef .tc main_v59) = (Cert.Sage.hid2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  dsimp only [W11]; simp only [hostOps2]; after_results_simp
  exact w10_v59 m ρ c

set_option maxHeartbeats 8000000 in
/-- The neighbour mean the third launch reads is the mean of the second hidden features along the same edges. -/
theorem w11_v78 : W11 m ρ c (Proc.devRef .tc main_v78) = Cert.Sage.meanAgg (Cert.Sage.hid2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.Sage.srcIds (m ((c : Thread nD τ).loc main_arg1))) (Cert.Sage.dstIds (m ((c : Thread nD τ).loc main_arg1))) := by
  dsimp only [W11]; simp only [hostOps2]; after_results_simp
  refine Eq.trans (b := Cert.Sage.meanAgg (W10 m ρ c (Proc.devRef .tc main_v59)) (W10 m ρ c (Proc.devRef .tc main_v1))
    (W10 m ρ c (Proc.devRef .tc main_v3))) rfl ?_
  exact meanAgg_congr (w10_v59 m ρ c) (w10_v1 m ρ c) (w10_v3 m ρ c)

theorem w11_v8 : W11 m ρ c (Proc.devRef .tc main_v8) = (Cert.Sage.wT (m ((c : Thread nD τ).loc main_arg8))) := by
  dsimp only [W11]; simp only [hostOps2]; after_results_simp
  exact w10_v8 m ρ c
theorem w11_v9 : W11 m ρ c (Proc.devRef .tc main_v9) = (Cert.Sage.wT (m ((c : Thread nD τ).loc main_arg10))) := by
  dsimp only [W11]; simp only [hostOps2]; after_results_simp
  exact w10_v9 m ρ c
theorem w11_v12 : W11 m ρ c (Proc.devRef .tc main_v12) = (Cert.Sage.bRow (m ((c : Thread nD τ).loc main_arg9))) := by
  dsimp only [W11]; simp only [hostOps2]; after_results_simp
  exact w10_v12 m ρ c
theorem w11_v14 : W11 m ρ c (Proc.devRef .tc main_v14) = (Cert.Sage.wc1Pad (m ((c : Thread nD τ).loc main_arg11))) := by
  dsimp only [W11]; simp only [hostOps2]; after_results_simp
  exact w10_v14 m ρ c
theorem w11_v16 : W11 m ρ c (Proc.devRef .tc main_v16) = (Cert.Sage.bc1Row (m ((c : Thread nD τ).loc main_arg12))) := by
  dsimp only [W11]; simp only [hostOps2]; after_results_simp
  exact w10_v16 m ρ c
theorem w11_v18 : W11 m ρ c (Proc.devRef .tc main_v18) = (Cert.Sage.wc2Pad (m ((c : Thread nD τ).loc main_arg13))) := by
  dsimp only [W11]; simp only [hostOps2]; after_results_simp
  exact w10_v18 m ρ c
theorem w11_v19 : W11 m ρ c (Proc.devRef .tc main_v19) = (Cert.Sage.bc2Row (m ((c : Thread nD τ).loc main_arg14))) := by
  dsimp only [W11]; simp only [hostOps2]; after_results_simp
  exact w10_v19 m ρ c

/-! ## After the third launch -/

/-- The layer the third launch computes on what it finds is the embedding of the launch memory. -/
theorem gemb_eq : Reg2.Gemb (V11 m ρ) c = (Cert.Sage.emb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  unfold Reg2.Gemb Cert.Sage.emb Cert.Sage.layer
  exact lin_congr (n := 50000) (w11_v59 m ρ c) (w11_v78 m ρ c) (w11_v8 m ρ c) (w11_v9 m ρ c) (w11_v12 m ρ c)

/-- The run ends with the embedding array holding the specification's embedding of the eleven first arguments. -/
theorem emb_chain : W12 m ρ c (Proc.devRef .tc main_v79_0) = (Cert.Sage.emb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  (W12_arr m ρ c 9).trans ((Reg2.final_emb (V11 m ρ) c).trans (gemb_eq m ρ c))

/-- The run ends with the score array holding the specification's output of the fifteen arguments. -/
theorem out_chain : W12 m ρ c (Proc.devRef .tc main_v79_1) = (Cert.Sage.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  refine (W12_arr m ρ c 10).trans ((Reg2.final_out (V11 m ρ) c).trans ?_)
  unfold Reg2.Gout Cert.Sage.out
  exact cls_congr (n := 50000) (gemb_eq m ρ c) (w11_v14 m ρ c) (w11_v16 m ρ c) (w11_v18 m ρ c) (w11_v19 m ρ c)

end Cert.KernelIdeal.Chain

end
-- ==== Proof.RefSide.lean ====
import proofs.«116254_j15281493639283_1_alg».proof.Proof.Gen.ReferenceIdeal.Run
import proofs.«116254_j15281493639283_1_alg».proof.Proof.SageNet
import proofs.«116254_j15281493639283_1_alg».proof.Proof.LibPlainDot
import Idealize.ShloMosaic.Lib.ValueLayout
import Idealize.ShloMosaic.Lib.KernelVsHost

/-!
  The reference network is the network of the specification.

  The reference's two results, read as closed terms of its fifteen argument arrays, are folded back into layers: a
  neighbour mean, two matrix products and a bias per layer, a rectifier after the first two, and a two-layer classifier
  on the 64 hidden units.  Each folded piece is then read index by index on the extended reals and compared with the
  specification's piece.  The classifier of the specification sums over 128 hidden units, the last 64 of which carry
  zero weights and a zero bias: those terms vanish and the first 64 are the reference's.
-/

noncomputable section

open scoped BigOperators

namespace Cert.Sage.Ref

open Idealize.ShloMosaic Idealize.ShloMosaic.ValueIdx
open Cert.ReferenceIdeal Cert.ReferenceIdeal.Gen

/-- The edge list: two rows of node numbers. -/
abbrev Edges : Type := (⟨S2x800000, .i32⟩ : BufTy).Contents (Elt Ideal)

/-- The mean over incoming edges of the source rows, with the reference's records. -/
def refMean (x : FVec Ideal S50000x128 .f32) (e : Edges) : FVec Ideal S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0
        (shapeCast _ (extractStridedSlice S1x800000 ![1, 0] e slices_S2x800000_S1x800000_1_0) shapeCasts_S1x800000_S800000))
      (Host.gather gather_S50000x128_S800000x1_S800000x128_1_0_n_n_0_1_1128 x
        (broadcastInDim S800000x1 ![0] bcast_S800000_S800000x1_0
          (select
            (cmpi .slt (shapeCast _ (extractStridedSlice S1x800000 ![0, 0] e slices_S2x800000_S1x800000_0_0) shapeCasts_S1x800000_S800000)
              (broadcastInDim S800000 ![] bcast_S_S800000 (constantI S_ 32 0#32)))
            (addi (shapeCast _ (extractStridedSlice S1x800000 ![0, 0] e slices_S2x800000_S1x800000_0_0) shapeCasts_S1x800000_S800000)
              (broadcastInDim S800000 ![] bcast_S_S800000 (constantI S_ 32 50000#32)))
            (shapeCast _ (extractStridedSlice S1x800000 ![0, 0] e slices_S2x800000_S1x800000_0_0) shapeCasts_S1x800000_S800000)))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0
              (shapeCast _ (extractStridedSlice S1x800000 ![1, 0] e slices_S2x800000_S1x800000_1_0) shapeCasts_S1x800000_S800000))
            (broadcastInDim S800000 ![] bcast_S_S800000 (constant S_ .f32 0x3F800000#32)))
          (broadcastInDim S50000 ![] bcast_S_S50000 (constant S_ .f32 0x3F800000#32)))))

/-- One layer as the reference spells it: the bias is added before the second product. -/
def refLayer (x : FVec Ideal S50000x128 .f32) (e : Edges) (Wl : FVec Ideal S128x128 .f32) (bl : FVec Ideal S128 .f32)
    (Wr : FVec Ideal S128x128 .f32) : FVec Ideal S50000x128 .f32 :=
  addf
    (addf
      (Host.dotGeneral dot_S50000x128_S128x128_S50000x128_1_0_0_1_n_n none x
        (transpose S128x128 [1, 0] Wl transposes_S128x128_S128x128_1_0))
      (broadcastInDim S50000x128 ![0, 1] bcast_S1x128_S50000x128_0_1 (broadcastInDim S1x128 ![1] bcast_S128_S1x128_1 bl)))
    (Host.dotGeneral dot_S50000x128_S128x128_S50000x128_1_0_0_1_n_n none (refMean x e)
      (transpose S128x128 [1, 0] Wr transposes_S128x128_S128x128_1_0))

/-- The rectifier as the reference spells it: the maximum with a broadcast zero word. -/
def refRelu (y : FVec Ideal S50000x128 .f32) : FVec Ideal S50000x128 .f32 :=
  maximumf y (broadcastInDim S50000x128 ![] bcast_S_S50000x128 (constant S_ .f32 0x00000000#32))

/-- The classifier as the reference spells it, on 64 hidden units. -/
def refCls (em : FVec Ideal S50000x128 .f32) (Wc1 : FVec Ideal S64x128 .f32) (bc1 : FVec Ideal S64 .f32)
    (Wc2 : FVec Ideal S2x64 .f32) (bc2 : FVec Ideal S2 .f32) : FVec Ideal S50000x2 .f32 :=
  addf
    (Host.dotGeneral dot_S50000x64_S64x2_S50000x2_1_0_0_1_n_n none
      (maximumf
        (addf
          (Host.dotGeneral dot_S50000x128_S128x64_S50000x64_1_0_0_1_n_n none em
            (transpose S128x64 [1, 0] Wc1 transposes_S64x128_S128x64_1_0))
          (broadcastInDim S50000x64 ![0, 1] bcast_S1x64_S50000x64_0_1 (broadcastInDim S1x64 ![1] bcast_S64_S1x64_1 bc1)))
        (broadcastInDim S50000x64 ![] bcast_S_S50000x64 (constant S_ .f32 0x00000000#32)))
      (transpose S64x2 [1, 0] Wc2 transposes_S2x64_S64x2_1_0))
    (broadcastInDim S50000x2 ![0, 1] bcast_S1x2_S50000x2_0_1 (broadcastInDim S1x2 ![1] bcast_S2_S1x2_1 bc2))

/-- The reference's embedding, folded into three layers. -/
def refEmb (x : FVec Ideal S50000x128 .f32) (e : Edges)
    (W1l : FVec Ideal S128x128 .f32) (b1l : FVec Ideal S128 .f32) (W1r : FVec Ideal S128x128 .f32)
    (W2l : FVec Ideal S128x128 .f32) (b2l : FVec Ideal S128 .f32) (W2r : FVec Ideal S128x128 .f32)
    (W3l : FVec Ideal S128x128 .f32) (b3l : FVec Ideal S128 .f32) (W3r : FVec Ideal S128x128 .f32) :
    FVec Ideal S50000x128 .f32 :=
  refLayer (refRelu (refLayer (refRelu (refLayer x e W1l b1l W1r)) e W2l b2l W2r)) e W3l b3l W3r

/-! ## Small readings at an index -/

section Generic
variable {α : Type}

/-- A vector of n entries laid out as one row reads its own entry at every column. -/
theorem rowOf_apply {n : Nat} (h : (⟨1, ![n]⟩ : Shape).BroadcastsInDim ⟨2, ![1, n]⟩ ![1])
    (b : (⟨1, ![n]⟩ : Shape).Idx → α) (u : Fin 1) (t : Fin n) :
    broadcastInDim ⟨2, ![1, n]⟩ ![1] h b (ix2 u t) = b (ix1 t) := by
  refine broadcastInDim_apply ![1] h b (ix2 u t) (ix1 t) fun a => ?_
  match a with
  | ⟨0, _⟩ =>
    show t.val = if n = 1 then 0 else t.val
    split
    · have := t.isLt; omega
    · rfl

/-- A vector laid out as one row and repeated down m rows reads, at (r, t), its entry t. -/
theorem biasRows_apply {m n : Nat} (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (t : Fin n) :
    broadcastInDim ⟨2, ![m, n]⟩ ![0, 1] h2 (broadcastInDim ⟨2, ![1, n]⟩ ![1] h1 b) (ix2 r t) = b (ix1 t) :=
  (broadcastInDim_oneRow_apply h2 _ r t).trans (rowOf_apply h1 b 0 t)

/-- The zero word repeated over any shape reads zero everywhere. -/
theorem zeroSplat_apply {s : Shape} (h : (⟨0, ![]⟩ : Shape).BroadcastsInDim s ![]) (i : s.Idx) :
    broadcastInDim s ![] h (constant (F := Ideal) ⟨0, ![]⟩ .f32 0x00000000#32) i = 0 :=
  Ideal.ofBits_zero_f32

/-- 64 columns appended to a 128×64 array: a column below 64 is the array's. -/
theorem padCols_lo (x : (⟨2, ![128, 64]⟩ : Shape).Idx → α) {u : Shape} (v : u.Idx → α)
    (h : (⟨2, ![128, 64]⟩ : Shape).Pads ![0, 0] ![0, 64] ![0, 0] ⟨2, ![128, 128]⟩) (hu : 0 < u.numel)
    (k : Fin 128) (j : Fin 64) :
    pad ⟨2, ![128, 128]⟩ ![0, 0] ![0, 64] ![0, 0] x v h hu (ix2 k (Fin.castAdd 64 j)) = x (ix2 k j) := by
  refine pad_apply_of_inside _ _ _ x v h hu _ (ix2 k j) fun a => ?_
  match a with
  | ⟨0, _⟩ => show k.val = 0 + k.val * (0 + 1); omega
  | ⟨1, _⟩ => show j.val = 0 + j.val * (0 + 1); omega

/-- 64 rows appended to a 64×2 array: a row below 64 is the array's. -/
theorem padRows_lo (x : (⟨2, ![64, 2]⟩ : Shape).Idx → α) {u : Shape} (v : u.Idx → α)
    (h : (⟨2, ![64, 2]⟩ : Shape).Pads ![0, 0] ![64, 0] ![0, 0] ⟨2, ![128, 2]⟩) (hu : 0 < u.numel)
    (j : Fin 64) (c : Fin 2) :
    pad ⟨2, ![128, 2]⟩ ![0, 0] ![64, 0] ![0, 0] x v h hu (ix2 (Fin.castAdd 64 j) c) = x (ix2 j c) := by
  refine pad_apply_of_inside _ _ _ x v h hu _ (ix2 j c) fun a => ?_
  match a with
  | ⟨0, _⟩ => show j.val = 0 + j.val * (0 + 1); omega
  | ⟨1, _⟩ => show c.val = 0 + c.val * (0 + 1); omega

/-- 64 rows appended to a 64×2 array: a row from 64 on is the padding value. -/
theorem padRows_hi (x : (⟨2, ![64, 2]⟩ : Shape).Idx → α) {u : Shape} (v : u.Idx → α)
    (h : (⟨2, ![64, 2]⟩ : Shape).Pads ![0, 0] ![64, 0] ![0, 0] ⟨2, ![128, 2]⟩) (hu : 0 < u.numel)
    (j : Fin 64) (c : Fin 2) :
    pad ⟨2, ![128, 2]⟩ ![0, 0] ![64, 0] ![0, 0] x v h hu (ix2 (Fin.natAdd 64 j) c) = v (Shape.Idx.first hu) := by
  refine pad_apply_of_not_inside _ _ _ x v h hu _ (⟨0, by decide⟩ : Fin 2) fun hin => ?_
  have h3 : (64 + j.val - 0) / (0 + 1) < 64 := hin.2.2
  omega

/-- 64 entries appended to a vector of 64: an entry below 64 is the vector's. -/
theorem padVec_lo (x : (⟨1, ![64]⟩ : Shape).Idx → α) {u : Shape} (v : u.Idx → α)
    (h : (⟨1, ![64]⟩ : Shape).Pads ![0] ![64] ![0] ⟨1, ![128]⟩) (hu : 0 < u.numel) (j : Fin 64) :
    pad ⟨1, ![128]⟩ ![0] ![64] ![0] x v h hu (ix1 (Fin.castAdd 64 j)) = x (ix1 j) := by
  refine pad_apply_of_inside _ _ _ x v h hu _ (ix1 j) fun a => ?_
  match a with
  | ⟨0, _⟩ => show j.val = 0 + j.val * (0 + 1); omega

end Generic

/-! ## The two results folded -/

/-- The reference's second result is the folded embedding of its eleven first arguments. -/
theorem res86_eq (m' : (ℓ : Loc nD τ sig) → Buf (Elt Ideal) ℓ) (c : Dev nD) :
    Cert.ReferenceIdeal.Value.res_main_v86 (F := Ideal) m' c
      = refEmb (m' ((c.tc : Thread nD τ).loc main_arg0))
          (m' ((c.tc : Thread nD τ).loc main_arg1))
          (m' ((c.tc : Thread nD τ).loc main_arg2))
          (m' ((c.tc : Thread nD τ).loc main_arg3))
          (m' ((c.tc : Thread nD τ).loc main_arg4))
          (m' ((c.tc : Thread nD τ).loc main_arg5))
          (m' ((c.tc : Thread nD τ).loc main_arg6))
          (m' ((c.tc : Thread nD τ).loc main_arg7))
          (m' ((c.tc : Thread nD τ).loc main_arg8))
          (m' ((c.tc : Thread nD τ).loc main_arg9))
          (m' ((c.tc : Thread nD τ).loc main_arg10)) := by
  unfold Cert.ReferenceIdeal.Value.res_main_v86 refEmb refLayer refRelu refMean
  rfl

/-- The reference's first result is the folded classifier of the second result and the four last arguments. -/
theorem res97_eq (m' : (ℓ : Loc nD τ sig) → Buf (Elt Ideal) ℓ) (c : Dev nD) :
    Cert.ReferenceIdeal.Value.res_main_v97 (F := Ideal) m' c
      = refCls (Cert.ReferenceIdeal.Value.res_main_v86 (F := Ideal) m' c)
          (m' ((c.tc : Thread nD τ).loc main_arg11))
          (m' ((c.tc : Thread nD τ).loc main_arg12))
          (m' ((c.tc : Thread nD τ).loc main_arg13))
          (m' ((c.tc : Thread nD τ).loc main_arg14)) := by
  unfold Cert.ReferenceIdeal.Value.res_main_v97 Cert.ReferenceIdeal.Value.res_main_v86 refCls
  rfl

/-! ## The folded pieces, index by index -/

/-- A layer of the reference is the specification's layer of the same operands: the two products and the bias at
    (r, q), the bias moved behind the second product. -/
theorem refLayer_eq_lin (x : FVec Ideal S50000x128 .f32) (e : Edges) (Wl : FVec Ideal S128x128 .f32)
    (bl : FVec Ideal S128 .f32) (Wr : FVec Ideal S128x128 .f32) (hsc : S128.ShapeCasts S1x128) :
    refLayer x e Wl bl Wr
      = Cert.Sage.lin x (refMean x e) (transpose S128x128 [1, 0] Wl transposes_S128x128_S128x128_1_0)
          (transpose S128x128 [1, 0] Wr transposes_S128x128_S128x128_1_0) (shapeCast S1x128 bl hsc) := by
  funext i
  obtain ⟨r, q, rfl⟩ : ∃ (r : Fin 50000) (q : Fin 128), i = ix2 r q := ⟨i 0, i 1, eq_ix2 i⟩
  have hd := PlainDot.eq_plain (M := 50000) (K := 128) (N := 128)
    dot_S50000x128_S128x128_S50000x128_1_0_0_1_n_n rfl rfl rfl rfl rfl rfl
  have h1 := PlainDot.dotGeneral_apply _ hd none .single x
    (transpose S128x128 [1, 0] Wl transposes_S128x128_S128x128_1_0) r q
  have h2 := PlainDot.dotGeneral_apply _ hd none .single (refMean x e)
    (transpose S128x128 [1, 0] Wr transposes_S128x128_S128x128_1_0) r q
  have h3 := biasRows_apply bcast_S128_S1x128_1 bcast_S1x128_S50000x128_0_1 bl r q
  have h4 := shapeCast_a_1a_apply bl hsc (0 : Fin 1) q
  rw [Cert.Sage.lin_apply, h4]
  unfold refLayer
  show (_ + _) + _ = _
  refine (congrArg₂ (· + ·) (congrArg₂ (· + ·) h1 h3) h2).trans ?_
  exact add_right_comm _ _ _

/-- The reference's rectifier is the specification's. -/
theorem refRelu_eq (y : FVec Ideal S50000x128 .f32) : refRelu y = Cert.Sage.relu y := by
  funext i
  show max (y i) _ = max (y i) 0
  exact congrArg (max (y i)) (zeroSplat_apply bcast_S_S50000x128 i)

/-- The reference's classifier at (r, c): 64 hidden units. -/
theorem refCls_apply (em : FVec Ideal S50000x128 .f32) (Wc1 : FVec Ideal S64x128 .f32) (bc1 : FVec Ideal S64 .f32)
    (Wc2 : FVec Ideal S2x64 .f32) (bc2 : FVec Ideal S2 .f32) (r : Fin 50000) (c : Fin 2) :
    refCls em Wc1 bc1 Wc2 bc2 (ix2 r c)
      = (∑ j : Fin 64,
          max ((∑ k : Fin 128, em (ix2 r k) * transpose S128x64 [1, 0] Wc1 transposes_S64x128_S128x64_1_0 (ix2 k j))
                + bc1 (ix1 j)) 0
            * transpose S64x2 [1, 0] Wc2 transposes_S2x64_S64x2_1_0 (ix2 j c))
        + bc2 (ix1 c) := by
  have hd1 := PlainDot.eq_plain (M := 50000) (K := 128) (N := 64)
    dot_S50000x128_S128x64_S50000x64_1_0_0_1_n_n rfl rfl rfl rfl rfl rfl
  have hd2 := PlainDot.eq_plain (M := 50000) (K := 64) (N := 2)
    dot_S50000x64_S64x2_S50000x2_1_0_0_1_n_n rfl rfl rfl rfl rfl rfl
  unfold refCls
  show _ + _ = _
  refine congrArg₂ (· + ·) ?_ (biasRows_apply bcast_S2_S1x2_1 bcast_S1x2_S50000x2_0_1 bc2 r c)
  refine (PlainDot.dotGeneral_apply _ hd2 none .single _ _ r c).trans ?_
  refine Finset.sum_congr rfl fun j _ => ?_
  refine congrArg (· * _) ?_
  show max (_ + _) _ = _
  refine congrArg₂ max (congrArg₂ (· + ·) ?_ ?_) ?_
  · exact PlainDot.dotGeneral_apply _ hd1 none .single em _ r j
  · exact biasRows_apply bcast_S64_S1x64_1 bcast_S1x64_S50000x64_0_1 bc1 r j
  · exact zeroSplat_apply bcast_S_S50000x64 (ix2 r j)

/-- The specification's classifier on operands padded from 64 to 128 hidden units is the classifier on 64: the terms of
    the last 64 units are products with a zero weight. -/
theorem cls_pad_apply {n : Nat} (em : Cert.Sage.Mat n 128) (w1 : Cert.Sage.Mat 128 128) (b1 : Cert.Sage.Mat 1 128)
    (w2 : Cert.Sage.Mat 128 2) (b2 : Cert.Sage.Mat 1 2)
    (t1 : Cert.Sage.Mat 128 64) (v1 : FVec Ideal ⟨1, ![64]⟩ .f32) (t2 : Cert.Sage.Mat 64 2) (v2 : FVec Ideal ⟨1, ![2]⟩ .f32)
    (hw1 : ∀ (k : Fin 128) (j : Fin 64), w1 (ix2 k (Fin.castAdd 64 j)) = t1 (ix2 k j))
    (hb1 : ∀ j : Fin 64, b1 (ix2 (0 : Fin 1) (Fin.castAdd 64 j)) = v1 (ix1 j))
    (hw2 : ∀ (j : Fin 64) (c : Fin 2), w2 (ix2 (Fin.castAdd 64 j) c) = t2 (ix2 j c))
    (hw2z : ∀ (j : Fin 64) (c : Fin 2), w2 (ix2 (Fin.natAdd 64 j) c) = 0)
    (hb2 : ∀ c : Fin 2, b2 (ix2 (0 : Fin 1) c) = v2 (ix1 c)) (r : Fin n) (c : Fin 2) :
    Cert.Sage.cls em w1 b1 w2 b2 (ix2 r c)
      = (∑ j : Fin 64, max ((∑ k : Fin 128, em (ix2 r k) * t1 (ix2 k j)) + v1 (ix1 j)) 0 * t2 (ix2 j c)) + v2 (ix1 c) := by
  rw [Cert.Sage.cls_apply, hb2 c]
  refine congrArg (· + v2 (ix1 c)) ?_
  refine (Fin.sum_univ_add (a := 64) (b := 64)
    (fun j : Fin (64 + 64) => max (Cert.Sage.dot em w1 r j + b1 (ix2 (0 : Fin 1) j)) 0 * w2 (ix2 j c))).trans ?_
  have hz : (∑ j : Fin 64, max (Cert.Sage.dot em w1 r (Fin.natAdd 64 j) + b1 (ix2 (0 : Fin 1) (Fin.natAdd 64 j))) 0
      * w2 (ix2 (Fin.natAdd 64 j) c)) = 0 :=
    Finset.sum_eq_zero fun j _ => by rw [hw2z j c, mul_zero]
  rw [hz, add_zero]
  refine Finset.sum_congr rfl fun j _ => ?_
  rw [hw2 j c, hb1 j]
  refine congrArg (fun s => max (s + v1 (ix1 j)) 0 * t2 (ix2 j c)) ?_
  exact Finset.sum_congr rfl fun k _ => by rw [hw1 k j]

/-! ## The reference against the specification -/

/-- The neighbour mean of the reference is the specification's: the same operations, under the other program's
    names for the same shapes and dimension records. -/
theorem refMean_eq (x : FVec Ideal S50000x128 .f32) (e : Edges) :
    refMean x e = Cert.Sage.meanAgg x (Cert.Sage.srcIds e) (Cert.Sage.dstIds e) := by
  unfold refMean Cert.Sage.meanAgg Cert.Sage.srcIds Cert.Sage.dstIds
  rfl

/-- A layer of the reference is a layer of the specification. -/
theorem refLayer_eq (x : FVec Ideal S50000x128 .f32) (e : Edges) (Wl : FVec Ideal S128x128 .f32)
    (bl : FVec Ideal S128 .f32) (Wr : FVec Ideal S128x128 .f32) :
    refLayer x e Wl bl Wr = Cert.Sage.layer x e Wl bl Wr := by
  rw [refLayer_eq_lin x e Wl bl Wr Cert.KernelIdeal.Gen.shapeCasts_S128_S1x128, refMean_eq]
  rfl

/-- The folded embedding is the specification's embedding. -/
theorem refEmb_eq (x : FVec Ideal S50000x128 .f32) (e : Edges)
    (W1l : FVec Ideal S128x128 .f32) (b1l : FVec Ideal S128 .f32) (W1r : FVec Ideal S128x128 .f32)
    (W2l : FVec Ideal S128x128 .f32) (b2l : FVec Ideal S128 .f32) (W2r : FVec Ideal S128x128 .f32)
    (W3l : FVec Ideal S128x128 .f32) (b3l : FVec Ideal S128 .f32) (W3r : FVec Ideal S128x128 .f32) :
    refEmb x e W1l b1l W1r W2l b2l W2r W3l b3l W3r = Cert.Sage.emb x e W1l b1l W1r W2l b2l W2r W3l b3l W3r := by
  unfold refEmb Cert.Sage.emb Cert.Sage.hid2 Cert.Sage.hid1
  rw [refLayer_eq, refRelu_eq, refLayer_eq, refRelu_eq, refLayer_eq]

/-- The reference's classifier on 64 hidden units is the specification's on the operands padded to 128. -/
theorem refCls_eq (em : FVec Ideal S50000x128 .f32) (Wc1 : FVec Ideal S64x128 .f32) (bc1 : FVec Ideal S64 .f32)
    (Wc2 : FVec Ideal S2x64 .f32) (bc2 : FVec Ideal S2 .f32) :
    refCls em Wc1 bc1 Wc2 bc2
      = Cert.Sage.cls em (Cert.Sage.wc1Pad Wc1) (Cert.Sage.bc1Row bc1) (Cert.Sage.wc2Pad Wc2) (Cert.Sage.bc2Row bc2) := by
  funext i
  obtain ⟨r, q, rfl⟩ : ∃ (r : Fin 50000) (q : Fin 2), i = ix2 r q := ⟨i 0, i 1, eq_ix2 i⟩
  rw [refCls_apply]
  refine (cls_pad_apply em (Cert.Sage.wc1Pad Wc1) (Cert.Sage.bc1Row bc1) (Cert.Sage.wc2Pad Wc2) (Cert.Sage.bc2Row bc2)
    (transpose S128x64 [1, 0] Wc1 transposes_S64x128_S128x64_1_0) bc1
    (transpose S64x2 [1, 0] Wc2 transposes_S2x64_S64x2_1_0) bc2 ?_ ?_ ?_ ?_ ?_ r q).symm
  · intro k j
    exact padCols_lo _ _ _ _ k j
  · intro j
    exact (shapeCast_a_1a_apply _ _ (0 : Fin 1) _).trans (padVec_lo _ _ _ _ j)
  · intro j c
    exact padRows_lo _ _ _ _ j c
  · intro j c
    exact (padRows_hi _ _ _ _ j c).trans (sitofp_zero (φ := .f32))
  · intro c
    exact shapeCast_a_1a_apply bc2 _ (0 : Fin 1) c

/-- The reference's second result, the embedding, is the specification's embedding of the first eleven arguments. -/
theorem emb_eq (m' : (ℓ : Loc nD τ sig) → Buf (Elt Ideal) ℓ) (c : Dev nD) :
    Cert.ReferenceIdeal.Value.res_main_v86 (F := Ideal) m' c
      = Cert.Sage.emb (m' ((c.tc : Thread nD τ).loc main_arg0))
          (m' ((c.tc : Thread nD τ).loc main_arg1))
          (m' ((c.tc : Thread nD τ).loc main_arg2))
          (m' ((c.tc : Thread nD τ).loc main_arg3))
          (m' ((c.tc : Thread nD τ).loc main_arg4))
          (m' ((c.tc : Thread nD τ).loc main_arg5))
          (m' ((c.tc : Thread nD τ).loc main_arg6))
          (m' ((c.tc : Thread nD τ).loc main_arg7))
          (m' ((c.tc : Thread nD τ).loc main_arg8))
          (m' ((c.tc : Thread nD τ).loc main_arg9))
          (m' ((c.tc : Thread nD τ).loc main_arg10)) :=
  (res86_eq m' c).trans (refEmb_eq _ _ _ _ _ _ _ _ _ _ _)

/-- The reference's first result, the class scores, is the specification's output of the fifteen arguments. -/
theorem out_eq (m' : (ℓ : Loc nD τ sig) → Buf (Elt Ideal) ℓ) (c : Dev nD) :
    Cert.ReferenceIdeal.Value.res_main_v97 (F := Ideal) m' c
      = Cert.Sage.out (m' ((c.tc : Thread nD τ).loc main_arg0))
          (m' ((c.tc : Thread nD τ).loc main_arg1))
          (m' ((c.tc : Thread nD τ).loc main_arg2))
          (m' ((c.tc : Thread nD τ).loc main_arg3))
          (m' ((c.tc : Thread nD τ).loc main_arg4))
          (m' ((c.tc : Thread nD τ).loc main_arg5))
          (m' ((c.tc : Thread nD τ).loc main_arg6))
          (m' ((c.tc : Thread nD τ).loc main_arg7))
          (m' ((c.tc : Thread nD τ).loc main_arg8))
          (m' ((c.tc : Thread nD τ).loc main_arg9))
          (m' ((c.tc : Thread nD τ).loc main_arg10))
          (m' ((c.tc : Thread nD τ).loc main_arg11))
          (m' ((c.tc : Thread nD τ).loc main_arg12))
          (m' ((c.tc : Thread nD τ).loc main_arg13))
          (m' ((c.tc : Thread nD τ).loc main_arg14)) := by
  rw [res97_eq, emb_eq, refCls_eq]
  rfl

end Cert.Sage.Ref

end
-- ==== Proof.lean ====
/-
  A three-layer graph network with a two-layer classifier: a kernel program of three launches against a plain
  reference, equal on the extended reals.

  Each layer is  x·Wlᵀ + bl + mean(x)·Wrᵀ  with mean(x) the mean of the neighbours' rows along the edge list (a row
  gather, a scatter-add by destination and a division by the clamped in-degree).  The kernel program computes the
  neighbour mean with the same host operations as the reference and the dense part in a launch over ten blocks of 5000
  rows, adding the bias last; addition on the extended reals is commutative and associative, so the two orders agree
  with no finiteness assumption.  The last launch also applies the classifier with its 64-wide hidden layer padded to
  128 by zero columns, zero bias entries and zero rows: a product with a zero entry is zero on the extended reals, so the
  64 extra terms vanish.  The three frames are the generated ones (the reference's is its run with the results dropped);
  no operation was rewritten by the idealization, so it preserves the program trivially.
-/
import proofs.«116254_j15281493639283_1_alg».proof.Defs
import proofs.«116254_j15281493639283_1_alg».proof.Proof.Gen.Kernel
import proofs.«116254_j15281493639283_1_alg».proof.Proof.Gen.Kernel.Skeleton
import proofs.«116254_j15281493639283_1_alg».proof.Proof.Gen.Kernel.Launch
import proofs.«116254_j15281493639283_1_alg».proof.Proof.Gen.Kernel.Points
import proofs.«116254_j15281493639283_1_alg».proof.Proof.Gen.Kernel.Frame
import proofs.«116254_j15281493639283_1_alg».proof.Proof.Gen.KernelIdeal
import proofs.«116254_j15281493639283_1_alg».proof.Proof.Gen.KernelIdeal.Skeleton
import proofs.«116254_j15281493639283_1_alg».proof.Proof.Gen.KernelIdeal.Launch
import proofs.«116254_j15281493639283_1_alg».proof.Proof.Gen.KernelIdeal.Points
import proofs.«116254_j15281493639283_1_alg».proof.Proof.Gen.KernelIdeal.Frame
import proofs.«116254_j15281493639283_1_alg».proof.Proof.Gen.ReferenceIdeal
import proofs.«116254_j15281493639283_1_alg».proof.Proof.Gen.ReferenceIdeal.Run
import proofs.«116254_j15281493639283_1_alg».proof.Proof.Gen.Pre_finite_inputs
import proofs.«116254_j15281493639283_1_alg».proof.Proof.KRun
import proofs.«116254_j15281493639283_1_alg».proof.Proof.Chain2
import proofs.«116254_j15281493639283_1_alg».proof.Proof.RefSide
import Idealize.ShloMosaic.Adequacy
import Idealize.ShloMosaic.Init

set_option maxRecDepth 16384

noncomputable section

namespace Cert.Proof

open Idealize.ShloMosaic Idealize.SL.Sem

/-- The word-level program runs and leaves its arguments as launched. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- The idealized kernel program ends with the class scores and the embedding at the network's two functions of its
    argument arrays, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v79_1)
            = Cert.Sage.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
        ∧ r.2.mem ((c.tc : Thread Cert.KernelIdeal.nD Cert.KernelIdeal.τ).loc Cert.KernelIdeal.main_v79_0)
            = Cert.Sage.emb (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)) :=
  (θ_run Cert.KernelIdeal.defs _ _).mono (fun r h c =>
    ⟨(h c Cert.KernelIdeal.main_v79_1 (by decide)).trans (Cert.KernelIdeal.Chain.out_chain m ρ c),
      (h c Cert.KernelIdeal.main_v79_0 (by decide)).trans (Cert.KernelIdeal.Chain.emb_chain m ρ c),
      (h c Cert.KernelIdeal.main_arg0 (by decide)).trans (Cert.KernelIdeal.Gen.W12_main_arg0 m ρ c),
      (h c Cert.KernelIdeal.main_arg1 (by decide)).trans (Cert.KernelIdeal.Gen.W12_main_arg1 m ρ c),
      (h c Cert.KernelIdeal.main_arg2 (by decide)).trans (Cert.KernelIdeal.Gen.W12_main_arg2 m ρ c),
      (h c Cert.KernelIdeal.main_arg3 (by decide)).trans (Cert.KernelIdeal.Gen.W12_main_arg3 m ρ c),
      (h c Cert.KernelIdeal.main_arg4 (by decide)).trans (Cert.KernelIdeal.Gen.W12_main_arg4 m ρ c),
      (h c Cert.KernelIdeal.main_arg5 (by decide)).trans (Cert.KernelIdeal.Gen.W12_main_arg5 m ρ c),
      (h c Cert.KernelIdeal.main_arg6 (by decide)).trans (Cert.KernelIdeal.Gen.W12_main_arg6 m ρ c),
      (h c Cert.KernelIdeal.main_arg7 (by decide)).trans (Cert.KernelIdeal.Gen.W12_main_arg7 m ρ c),
      (h c Cert.KernelIdeal.main_arg8 (by decide)).trans (Cert.KernelIdeal.Gen.W12_main_arg8 m ρ c),
      (h c Cert.KernelIdeal.main_arg9 (by decide)).trans (Cert.KernelIdeal.Gen.W12_main_arg9 m ρ c),
      (h c Cert.KernelIdeal.main_arg10 (by decide)).trans (Cert.KernelIdeal.Gen.W12_main_arg10 m ρ c),
      (h c Cert.KernelIdeal.main_arg11 (by decide)).trans (Cert.KernelIdeal.Gen.W12_main_arg11 m ρ c),
      (h c Cert.KernelIdeal.main_arg12 (by decide)).trans (Cert.KernelIdeal.Gen.W12_main_arg12 m ρ c),
      (h c Cert.KernelIdeal.main_arg13 (by decide)).trans (Cert.KernelIdeal.Gen.W12_main_arg13 m ρ c),
      (h c Cert.KernelIdeal.main_arg14 (by decide)).trans (Cert.KernelIdeal.Gen.W12_main_arg14 m ρ c)⟩)
    (Cert.KernelIdeal.KRun.run_named m ρ)

/-- From memories agreeing on the arguments both programs end with the same class scores and the same embedding:
    the network's two functions of the arguments. -/
theorem algebraic : Cert.algebraic_KernelIdeal_ReferenceIdeal := by
  intro m ρ m' ρ' _ hagree
  refine ⟨_, _, kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14⟩ := hagree c
    rw [Cert.Sage.Ref.out_eq, h0, h1, h2, h3, h4, h5, h6, h7, h8, h9, h10, h11, h12, h13, h14]
  · obtain ⟨h0, h1, h2, h3, h4, h5, h6, h7, h8, h9, h10, -, -, -, -⟩ := hagree c
    rw [Cert.Sage.Ref.emb_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
